-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256x1024 : Shape := ⟨2, ![256, 1024]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S1x256 .f32) (main_arg10 : FVec F S1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S1x256 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S256x1024 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S1x256 .f32) (main_arg10 : FVec F S1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S256x1024 : Shape := ⟨2, ![256, 1024]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x1 : Shape := ⟨2, ![1, 1]⟩
abbrev S8192x256 : Shape := ⟨2, ![8192, 256]⟩
abbrev S1024x1024 : Shape := ⟨2, ![1024, 1024]⟩
abbrev S1024x256 : Shape := ⟨2, ![1024, 256]⟩
abbrev S8192x1 : Shape := ⟨2, ![8192, 1]⟩
abbrev S1024x1 : Shape := ⟨2, ![1024, 1]⟩
abbrev S512x256 : Shape := ⟨2, ![512, 256]⟩
abbrev S1024x512 : Shape := ⟨2, ![1024, 512]⟩
abbrev S1024 : Shape := ⟨1, ![1024]⟩
abbrev S8192 : Shape := ⟨1, ![8192]⟩

abbrev nBuf : Space → Nat
  | .hbm => 24
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S256x256, .bf16⟩
  | .hbm, ⟨17, _⟩ => ⟨S256x256, .bf16⟩
  | .hbm, ⟨18, _⟩ => ⟨S256x256, .bf16⟩
  | .hbm, ⟨19, _⟩ => ⟨S8192x256, .f32⟩
  | .hbm, ⟨20, _⟩ => ⟨S8192x256, .bf16⟩
  | .hbm, ⟨21, _⟩ => ⟨S8192x256, .bf16⟩
  | .hbm, ⟨22, _⟩ => ⟨S8192x1, .f32⟩
  | .hbm, ⟨23, _⟩ => ⟨S8192, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .f32⟩
  | .local _ .vmem, ⟨15, _⟩ => ⟨S1024x256, .f32⟩
  | .local _ .vmem, ⟨16, _⟩ => ⟨S256x256, .bf16⟩
  | .local _ .vmem, ⟨17, _⟩ => ⟨S1x256, .f32⟩
  | .local _ .vmem, ⟨18, _⟩ => ⟨S8192x256, .bf16⟩
  | .local _ .vmem, ⟨19, _⟩ => ⟨S8192x256, .bf16⟩
  | .local _ .vmem, ⟨20, _⟩ => ⟨S1x256, .f32⟩
  | .local _ .vmem, ⟨21, _⟩ => ⟨S1x1, .f32⟩
  | .local _ .vmem, ⟨22, _⟩ => ⟨S1024x1, .f32⟩
  | .local _ .vmem, ⟨23, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S256_S1x256 : S256.ShapeCasts S1x256
  shapeCasts_S1_S1x1 : S1.ShapeCasts S1x1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S8192x256_S512x256_0_0 : ∀ a, (![0, 0] : Fin 2 → Nat) a + S512x256.size a ≤ S8192x256.size a
  h_S512x256 : 0 < S512x256.numel
  shapeCasts_S512x256_S512x256 : S512x256.ShapeCasts S512x256
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x256 : S1024x1.Broadcasts S1024x256
  inb_S8192x256_S512x256_512_0 : ∀ a, (![512, 0] : Fin 2 → Nat) a + S512x256.size a ≤ S8192x256.size a
  inb_S8192x256_S512x256_1024_0 : ∀ a, (![1024, 0] : Fin 2 → Nat) a + S512x256.size a ≤ S8192x256.size a
  inb_S8192x256_S512x256_1536_0 : ∀ a, (![1536, 0] : Fin 2 → Nat) a + S512x256.size a ≤ S8192x256.size a
  inb_S8192x256_S512x256_2048_0 : ∀ a, (![2048, 0] : Fin 2 → Nat) a + S512x256.size a ≤ S8192x256.size a
  inb_S8192x256_S512x256_2560_0 : ∀ a, (![2560, 0] : Fin 2 → Nat) a + S512x256.size a ≤ S8192x256.size a
  inb_S8192x256_S512x256_3072_0 : ∀ a, (![3072, 0] : Fin 2 → Nat) a + S512x256.size a ≤ S8192x256.size a
  inb_S8192x256_S512x256_3584_0 : ∀ a, (![3584, 0] : Fin 2 → Nat) a + S512x256.size a ≤ S8192x256.size a
  inb_S8192x256_S512x256_4096_0 : ∀ a, (![4096, 0] : Fin 2 → Nat) a + S512x256.size a ≤ S8192x256.size a
  inb_S8192x256_S512x256_4608_0 : ∀ a, (![4608, 0] : Fin 2 → Nat) a + S512x256.size a ≤ S8192x256.size a
  inb_S8192x256_S512x256_5120_0 : ∀ a, (![5120, 0] : Fin 2 → Nat) a + S512x256.size a ≤ S8192x256.size a
  inb_S8192x256_S512x256_5632_0 : ∀ a, (![5632, 0] : Fin 2 → Nat) a + S512x256.size a ≤ S8192x256.size a
  inb_S8192x256_S512x256_6144_0 : ∀ a, (![6144, 0] : Fin 2 → Nat) a + S512x256.size a ≤ S8192x256.size a
  inb_S8192x256_S512x256_6656_0 : ∀ a, (![6656, 0] : Fin 2 → Nat) a + S512x256.size a ≤ S8192x256.size a
  inb_S8192x256_S512x256_7168_0 : ∀ a, (![7168, 0] : Fin 2 → Nat) a + S512x256.size a ≤ S8192x256.size a
  inb_S8192x256_S512x256_7680_0 : ∀ a, (![7680, 0] : Fin 2 → Nat) a + S512x256.size a ≤ S8192x256.size a
  reduces_S1024x256_S1024 : S1024x256.Reduces [1] S1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  dot_S1024x1024_S256x1024_S1024x256_1_1_0_0_n_n_wf : DotDims.WF S1024x1024 S256x1024 S1024x256 [1] [1] [0] [0] [] []
  dot_S1024x256_S256x256_S1024x256_1_1_0_0_n_n_wf : DotDims.WF S1024x256 S256x256 S1024x256 [1] [1] [0] [0] [] []
  dot_S1024x256_S512x256_S1024x512_1_1_0_0_n_n_wf : DotDims.WF S1024x256 S512x256 S1024x512 [1] [1] [0] [0] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .f32 = 32 ∨ (Rect.block (s := S8192x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x256.size a
  hwx0_8 : ∀ i : grid0.Coords, EltTy.bits .bf16 = 32 ∨ (Rect.block (s := S8192x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x256.size a
  hwx0_9 : ∀ i : grid0.Coords, EltTy.bits .bf16 = 32 ∨ (Rect.block (s := S8192x256) S1024x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x256.size a ≤ S8192x256.size a
  hwx1_4 : ∀ i : grid1.Coords, EltTy.bits .bf16 = 32 ∨ (Rect.block (s := S8192x256) S8192x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_1) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_2) S8192x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S256x1024 : Shape := ⟨2, ![256, 1024]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1024x256 : Shape := ⟨2, ![1024, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S256x1 : Shape := ⟨2, ![256, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S1024x256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S256x256, .f32⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S256x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | .hbm, ⟨26, _⟩ => ⟨S256x256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S256x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x256, .f32⟩
  | .hbm, ⟨51, _⟩ => ⟨S8192x256, .f32⟩
  | .hbm, ⟨52, _⟩ => ⟨S256x1, .f32⟩
  | .hbm, ⟨53, _⟩ => ⟨S8192x1, .f32⟩
  | .hbm, ⟨54, _⟩ => ⟨S1x1, .f32⟩
  | .hbm, ⟨55, _⟩ => ⟨S8192x1, .f32⟩
  | .hbm, ⟨56, _⟩ => ⟨S8192x1, .f32⟩
  | .hbm, ⟨57, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S256x256_S256x256_1_0 : S256x256.Transposes [1, 0] S256x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S1x256_S256x1_1_0 : S1x256.Transposes [1, 0] S256x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x1024_S1024x256_S8192x256_1_0_0_1_n_n_wf : DotDims.WF S8192x1024 S1024x256 S8192x256 [1] [0] [0] [1] [] []
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x1_S8192x1_1_0_0_1_n_n_wf : DotDims.WF S8192x256 S256x1 S8192x1 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.KernelRun.lean ====
/-
  The run of the kernel program with its RESULT named. The generated frame proves that every weakly fair execution of
  @main terminates with the argument arrays unchanged; the same launch over the same four segments (host operations,
  the projection region, the attention region, the final reshape) also fixes every unscoped buffer of the final state
  at the last boundary's contents `W4`. Here that is stated for the result buffer as well as for the arguments.
-/
import proofs.«160817_j35158602285581_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the eleven argument arrays as launched. -/
theorem run_value : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.HostSide.lean ====
/-
  What the kernel program's host operations leave in the buffers its two regions read, and what the final reshape
  returns: each region input is an argument as launched, a bias reshaped to one row, or a weight matrix narrowed to
  bf16; region 1 also reads the three arrays region 0 writes; the result is region 1's output column reshaped to a
  vector.
-/
import proofs.«160817_j35158602285581_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostSide

open Idealize.ShloMosaic Idealize.ShloMosaic.TcCoe Idealize.SL.Sem Idealize.ShloMosaic.StableHlo
  Idealize.ShloMosaic.ValueIdx Cert.KernelIdeal Cert.KernelIdeal.Gen

variable {F : FTy → Type} [FloatOps F] (m : (ℓ : Loc nD τ sig) → Buf (Elt F) ℓ) (ρ : Dev nD → PrngReg)

/-! ## Region 0's inputs -/

/-- The input rows are as launched. -/
theorem V1_main_arg0 (c : Dev nD) : V1 m ρ c main_arg0 = m ((c : Thread nD τ).loc main_arg0) := by
  show StableHlo.after hostOps0 (W0 m ρ c) (Proc.devRef .tc main_arg0) = _
  after_results

/-- The first layer's weights are as launched. -/
theorem V1_main_arg1 (c : Dev nD) : V1 m ρ c main_arg1 = m ((c : Thread nD τ).loc main_arg1) := by
  show StableHlo.after hostOps0 (W0 m ρ c) (Proc.devRef .tc main_arg1) = _
  after_results

/-- The first layer's bias as one row. -/
theorem V1_main_v0 (c : Dev nD) :
    V1 m ρ c main_v0 = shapeCast S1x256 (m ((c : Thread nD τ).loc main_arg2)) shapeCasts_S256_S1x256 := by
  show StableHlo.after hostOps0 (W0 m ρ c) (Proc.devRef .tc main_v0) = _
  after_results
  rfl

/-- The key layer's bias as one row. -/
theorem V1_main_v2 (c : Dev nD) :
    V1 m ρ c main_v2 = shapeCast S1x256 (m ((c : Thread nD τ).loc main_arg6)) shapeCasts_S256_S1x256 := by
  show StableHlo.after hostOps0 (W0 m ρ c) (Proc.devRef .tc main_v2) = _
  after_results
  rfl

/-- The value layer's bias as one row. -/
theorem V1_main_v3 (c : Dev nD) :
    V1 m ρ c main_v3 = shapeCast S1x256 (m ((c : Thread nD τ).loc main_arg8)) shapeCasts_S256_S1x256 := by
  show StableHlo.after hostOps0 (W0 m ρ c) (Proc.devRef .tc main_v3) = _
  after_results
  rfl

/-- The key layer's weights narrowed to bf16. -/
theorem V1_main_v5 (c : Dev nD) :
    V1 m ρ c main_v5 = truncf .bf16 (m ((c : Thread nD τ).loc main_arg5)) bitsLt_bf16_f32 := by
  show StableHlo.after hostOps0 (W0 m ρ c) (Proc.devRef .tc main_v5) = _
  after_results

/-- The value layer's weights narrowed to bf16. -/
theorem V1_main_v6 (c : Dev nD) :
    V1 m ρ c main_v6 = truncf .bf16 (m ((c : Thread nD τ).loc main_arg7)) bitsLt_bf16_f32 := by
  show StableHlo.after hostOps0 (W0 m ρ c) (Proc.devRef .tc main_v6) = _
  after_results

/-! ## Region 1's inputs that region 0 does not write -/

/-- The query layer's weights narrowed to bf16. -/
theorem V2_main_v7 (c : Dev nD) :
    V2 m ρ c main_v7 = truncf .bf16 (m ((c : Thread nD τ).loc main_arg3)) bitsLt_bf16_f32 := by
  show W2 m ρ c (Proc.devRef .tc main_v7) = _
  rw [W2_of_ne m ρ c main_v7 (by decide)]
  show StableHlo.after hostOps0 (W0 m ρ c) (Proc.devRef .tc main_v7) = _
  after_results

/-- The query layer's bias as one row. -/
theorem V2_main_v1 (c : Dev nD) :
    V2 m ρ c main_v1 = shapeCast S1x256 (m ((c : Thread nD τ).loc main_arg4)) shapeCasts_S256_S1x256 := by
  show W2 m ρ c (Proc.devRef .tc main_v1) = _
  rw [W2_of_ne m ρ c main_v1 (by decide)]
  show StableHlo.after hostOps0 (W0 m ρ c) (Proc.devRef .tc main_v1) = _
  after_results
  rfl

/-- The last layer's weights are as launched. -/
theorem V2_main_arg9 (c : Dev nD) : V2 m ρ c main_arg9 = m ((c : Thread nD τ).loc main_arg9) := by
  show W2 m ρ c (Proc.devRef .tc main_arg9) = _
  rw [W2_of_ne m ρ c main_arg9 (by decide)]
  show StableHlo.after hostOps0 (W0 m ρ c) (Proc.devRef .tc main_arg9) = _
  after_results

/-- The last layer's bias as a one-by-one array. -/
theorem V2_main_v4 (c : Dev nD) :
    V2 m ρ c main_v4 = shapeCast S1x1 (m ((c : Thread nD τ).loc main_arg10)) shapeCasts_S1_S1x1 := by
  show W2 m ρ c (Proc.devRef .tc main_v4) = _
  rw [W2_of_ne m ρ c main_v4 (by decide)]
  show StableHlo.after hostOps0 (W0 m ρ c) (Proc.devRef .tc main_v4) = _
  after_results
  rfl

/-! ## Region 1's inputs that region 0 writes -/

theorem V2_main_v8_0 (c : Dev nD) : V2 m ρ c main_v8_0 = (dat0 (V1 m ρ) c).arrAt 7 cfg0.N := W2_arr m ρ c 7
theorem V2_main_v8_1 (c : Dev nD) : V2 m ρ c main_v8_1 = (dat0 (V1 m ρ) c).arrAt 8 cfg0.N := W2_arr m ρ c 8
theorem V2_main_v8_2 (c : Dev nD) : V2 m ρ c main_v8_2 = (dat0 (V1 m ρ) c).arrAt 9 cfg0.N := W2_arr m ρ c 9

/-! ## The result -/

/-- The returned vector is region 1's output column reshaped. -/
theorem W4_main_v10 (c : Dev nD) :
    W4 m ρ c (Proc.devRef .tc main_v10) = shapeCast S8192 ((dat1 (V2 m ρ) c).arrAt 7 cfg1.N) shapeCasts_S8192x1_S8192 := by
  have h : W4 m ρ c (Proc.devRef .tc main_v10)
      = shapeCast S8192 (W3 m ρ c (Proc.devRef .tc main_v9)) shapeCasts_S8192x1_S8192 := by
    show StableHlo.after hostOps2 (W3 m ρ c) (Proc.devRef .tc main_v10) = _
    after_results
    rfl
  rw [h]
  exact congrArg (fun x => shapeCast S8192 x shapeCasts_S8192x1_S8192) (W3_arr m ρ c 7)

/-! ## The bias reshapes read at an index -/

/-- A bias of 256 numbers as one row reads, at column `o`, the bias at `o`. -/
theorem bias_row_apply {α : Type} (b : S256.Idx → α) (o : Fin 256) :
    (shapeCast S1x256 b shapeCasts_S256_S1x256) (ix2 (0 : Fin 1) o) = b (ix1 o) :=
  shapeCast_a_1a_apply b shapeCasts_S256_S1x256 0 o

/-- A bias of one number as a one-by-one array reads that number. -/
theorem bias_one_apply {α : Type} (b : S1.Idx → α) :
    (shapeCast S1x1 b shapeCasts_S1_S1x1) (ix2 (0 : Fin 1) (0 : Fin 1)) = b (ix1 (0 : Fin 1)) :=
  shapeCast_a_1a_apply b shapeCasts_S1_S1x1 0 0

end Cert.KernelIdeal.HostSide

end
-- ==== Proof.LibKeepdims2.lean ====
/-
  One more layout fact for a COLUMN, read at an index: an `a × 1` column cast to an array of `a` numbers holds the
  same numbers.
-/
import Idealize.ShloMosaic.Lib.ValueLayout
import Idealize.ShloMosaic.Lib.Pipeline.Value

noncomputable section

namespace Keepdims

open Idealize.ShloMosaic Idealize.ShloMosaic.ValueIdx

variable {α : Type}

/-- An `[a, 1]` column cast to `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Keepdims

end
-- ==== Proof.ProjArray.lean ====
/-
  From blocks to the arrays, for the projection region. Grid point `t` is handed rows `1024 t … 1024 t + 1023` of
  the input `x` and the whole of every weight and bias, and writes back rows `1024 t …` of the hidden, key and value
  arrays. So each of the three arrays, at row `i`, is what the block containing row `i` computes at its row
  `i mod 1024`; the eight blocks cover all 8192 rows.
-/
import proofs.«160817_j35158602285581_2_alg».proof.Proof.Gen.KernelIdeal.Frame
import Idealize.ShloMosaic.Lib.Pipeline.Value
import Idealize.ShloMosaic.Lib.ValueIdx

set_option maxRecDepth 16384

noncomputable section

namespace Cert.KernelIdeal.ProjArray

open Idealize.ShloMosaic Idealize.ShloMosaic.TcCoe Idealize.SL.Sem Idealize.ShloMosaic.ValueIdx
open Cert.KernelIdeal Cert.KernelIdeal.Gen

-- the region's entry contents, a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input rows and the three outputs move with the point, every weight and bias is whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 8 := lt_of_lt_of_eq t.isLt N_0

/-- Rows `1024 t … 1024 t + 1023` of the `8192 × 1024` input (the block index taken mod 8). -/
def xBlock (X : FVec Ideal S8192x1024 .f32) (t : ℕ) : FVec Ideal S1024x1024 .f32 :=
  fun y => X (ix2 (⟨(t % 8) * 1024 + (y 0).val, by have h : (y 0).val < 1024 := (y 0).isLt; omega⟩ : Fin 8192) (y 1))

/-- The hidden, key and value arrays as functions of the operand arrays: row `i` from the block that contains it. -/
def hidOut (X : FVec Ideal S8192x1024 .f32) (W1 : FVec Ideal S256x1024 .f32) (B1 : FVec Ideal S1x256 .f32) : FVec Ideal S8192x256 .f32 :=
  fun i => k0_pay1 (xBlock X ((i 0).val / 1024)) W1 B1 (ix2 (⟨(i 0).val % 1024, Nat.mod_lt _ (by decide)⟩ : Fin 1024) (i 1))
def keyOut (X : FVec Ideal S8192x1024 .f32) (W1 : FVec Ideal S256x1024 .f32) (B1 : FVec Ideal S1x256 .f32) (KW : FVec Ideal S256x256 .bf16) (KB : FVec Ideal S1x256 .f32) : FVec Ideal S8192x256 .bf16 :=
  fun i => k0_pay2 (xBlock X ((i 0).val / 1024)) W1 B1 KW KB (ix2 (⟨(i 0).val % 1024, Nat.mod_lt _ (by decide)⟩ : Fin 1024) (i 1))
def valOut (X : FVec Ideal S8192x1024 .f32) (W1 : FVec Ideal S256x1024 .f32) (B1 : FVec Ideal S1x256 .f32) (VW : FVec Ideal S256x256 .bf16) (VB : FVec Ideal S1x256 .f32) : FVec Ideal S8192x256 .bf16 :=
  fun i => k0_pay3 (xBlock X ((i 0).val / 1024)) W1 B1 VW VB (ix2 (⟨(i 0).val % 1024, Nat.mod_lt _ (by decide)⟩ : Fin 1024) (i 1))

/-- Point `t`'s block of the input is its rows `1024 t …`. -/
theorem iblk0_eq (c : Dev nD) (t : Fin cfg0.N) : iblk0 V c 0 t = xBlock (V c main_arg0) t.val := by
  funext y
  show V c main_arg0 (((cfg0.win 0).blk t).view.emb y) = V c main_arg0 _
  refine congrArg (V c main_arg0) (funext fun a => Fin.ext ?_)
  obtain ⟨e0, e1, -⟩ := idx0 t
  have ht := point_lt t
  match a with
  | ⟨0, _⟩ => show win0_0.index t (0 : Fin 2) * 1024 + 1 * (y 0).val = (t.val % 8) * 1024 + (y 0).val; omega
  | ⟨1, _⟩ => show win0_0.index t (1 : Fin 2) * 1024 + 1 * (y 1).val = (y 1).val; omega

theorem iblk1_eq (c : Dev nD) (t : Fin cfg0.N) : iblk0 V c 1 t = V c main_arg1 := by
  funext y
  show V c main_arg1 (((cfg0.win 1).blk t).view.emb y) = _
  refine congrArg (V c main_arg1) (funext fun a => Fin.ext ?_)
  obtain ⟨e0, e1, e2, e3, e4, e5, e6, e7, e8, e9, e10, e11, e12, e13, e14, e15, e16, e17, e18, e19⟩ := idx0 t
  match a with
  | ⟨0, _⟩ => show win0_1.index t (0 : Fin 2) * 256 + 1 * (y 0).val = (y 0).val; omega
  | ⟨1, _⟩ => show win0_1.index t (1 : Fin 2) * 1024 + 1 * (y 1).val = (y 1).val; omega

theorem iblk2_eq (c : Dev nD) (t : Fin cfg0.N) : iblk0 V c 2 t = V c main_v0 := by
  funext y
  show V c main_v0 (((cfg0.win 2).blk t).view.emb y) = _
  refine congrArg (V c main_v0) (funext fun a => Fin.ext ?_)
  obtain ⟨e0, e1, e2, e3, e4, e5, e6, e7, e8, e9, e10, e11, e12, e13, e14, e15, e16, e17, e18, e19⟩ := idx0 t
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem iblk3_eq (c : Dev nD) (t : Fin cfg0.N) : iblk0 V c 3 t = V c main_v5 := by
  funext y
  show V c main_v5 (((cfg0.win 3).blk t).view.emb y) = _
  refine congrArg (V c main_v5) (funext fun a => Fin.ext ?_)
  obtain ⟨e0, e1, e2, e3, e4, e5, e6, e7, e8, e9, e10, e11, e12, e13, e14, e15, e16, e17, e18, e19⟩ := idx0 t
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem iblk4_eq (c : Dev nD) (t : Fin cfg0.N) : iblk0 V c 4 t = V c main_v2 := by
  funext y
  show V c main_v2 (((cfg0.win 4).blk t).view.emb y) = _
  refine congrArg (V c main_v2) (funext fun a => Fin.ext ?_)
  obtain ⟨e0, e1, e2, e3, e4, e5, e6, e7, e8, e9, e10, e11, e12, e13, e14, e15, e16, e17, e18, e19⟩ := idx0 t
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem iblk5_eq (c : Dev nD) (t : Fin cfg0.N) : iblk0 V c 5 t = V c main_v6 := by
  funext y
  show V c main_v6 (((cfg0.win 5).blk t).view.emb y) = _
  refine congrArg (V c main_v6) (funext fun a => Fin.ext ?_)
  obtain ⟨e0, e1, e2, e3, e4, e5, e6, e7, e8, e9, e10, e11, e12, e13, e14, e15, e16, e17, e18, e19⟩ := idx0 t
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem iblk6_eq (c : Dev nD) (t : Fin cfg0.N) : iblk0 V c 6 t = V c main_v3 := by
  funext y
  show V c main_v3 (((cfg0.win 6).blk t).view.emb y) = _
  refine congrArg (V c main_v3) (funext fun a => Fin.ext ?_)
  obtain ⟨e0, e1, e2, e3, e4, e5, e6, e7, e8, e9, e10, e11, e12, e13, e14, e15, e16, e17, e18, e19⟩ := idx0 t
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- WHAT POINT `t` WRITES BACK to the hid array is block `t` of its closed form. -/
theorem flushed7_eq (c : Dev nD) (t : Fin cfg0.N) :
    (dat0 V c).flushed 7 t = ((cfg0.win 7).blk t).view.read (Elt Ideal) (hidOut (V c main_arg0) (V c main_arg1) (V c main_v0)) := by
  show (cfg0.win 7).cut (grid0.coords t) ((dat0 V c).after 7 t) = _
  rw [after0_7]
  unfold out0_7
  rw [View.canon_unit_zero hz]
  simp only [View.ld_unit_zero (S := S1024x1024) hz, View.ld_unit_zero (S := S256x1024) hz, View.ld_unit_zero (S := S1x256) hz, View.ld_unit_zero (S := S256x256) hz]
  rw [iblk0_eq, iblk1_eq, iblk2_eq]
  funext y
  obtain ⟨-, -, -, -, -, -, -, -, -, -, -, -, -, -, e14, e15, e16, e17, e18, e19⟩ := idx0 t
  have ht := point_lt t
  have hy0 : (y 0).val < 1024 := (y 0).isLt
  have hy1 : (y 1).val < 256 := (y 1).isLt
  have hi : ((((cfg0.win 7).blk t).view.emb y) 0).val = t.val * 1024 + (y 0).val := by
    show win0_7.index t (0 : Fin 2) * 1024 + 1 * (y 0).val = _; omega
  have hj : ((((cfg0.win 7).blk t).view.emb y) 1).val = (y 1).val := by
    show win0_7.index t (1 : Fin 2) * 256 + 1 * (y 1).val = _; omega
  show _ = hidOut _ _ _ (((cfg0.win 7).blk t).view.emb y)
  unfold hidOut
  have hd : ((((cfg0.win 7).blk t).view.emb y) 0).val / 1024 = t.val := by omega
  rw [hd]
  refine congrArg _ (funext fun a => Fin.ext ?_)
  match a with
  | ⟨0, _⟩ => show (y 0).val = ((((cfg0.win 7).blk t).view.emb y) 0).val % 1024; omega
  | ⟨1, _⟩ => show (y 1).val = ((((cfg0.win 7).blk t).view.emb y) 1).val; omega

theorem mem_blk7 (t : Fin cfg0.N) (i : S8192x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v8_0).slice (win0_7.rect t)).set ↔ _
  rw [View.set_slice_whole, Rect.mem_set_unit]
  exact Iff.rfl

theorem cover7 (i : S8192x256.Idx) : ∃ t : Fin cfg0.N, (cfg0.win 7).flush t = true ∧ i ∈ ((cfg0.win 7).blk t).view.set := by
  have hi0 : (i 0).val < 8192 := (i 0).isLt
  have hi1 : (i 1).val < 256 := (i 1).isLt
  refine ⟨⟨(i 0).val / 1024, by rw [show cfg0.N = 8 from N_0]; omega⟩, flush0_7 _, ?_⟩
  rw [mem_blk7]
  obtain ⟨-, -, -, -, -, -, -, -, -, -, -, -, -, -, e14, e15, e16, e17, e18, e19⟩ := idx0 ⟨(i 0).val / 1024, by rw [show cfg0.N = 8 from N_0]; omega⟩
  intro a
  match a with
  | ⟨0, _⟩ =>
    show win0_7.index _ (0 : Fin 2) * 1024 ≤ (i 0).val ∧ (i 0).val < win0_7.index _ (0 : Fin 2) * 1024 + 1024
    rw [e14]; show (i 0).val / 1024 * 1024 ≤ (i 0).val ∧ (i 0).val < (i 0).val / 1024 * 1024 + 1024; omega
  | ⟨1, _⟩ =>
    show win0_7.index _ (1 : Fin 2) * 256 ≤ (i 1).val ∧ (i 1).val < win0_7.index _ (1 : Fin 2) * 256 + 256
    rw [e15]; omega

/-- THE HID ARRAY after the region. -/
theorem final7 (c : Dev nD) : (dat0 V c).arrAt 7 cfg0.N = hidOut (V c main_arg0) (V c main_arg1) (V c main_v0) :=
  (dat0 V c).arrAt_eq_of_cover 7 _ (fun t _ => flushed7_eq V c t) (cover7)

/-- WHAT POINT `t` WRITES BACK to the key array is block `t` of its closed form. -/
theorem flushed8_eq (c : Dev nD) (t : Fin cfg0.N) :
    (dat0 V c).flushed 8 t = ((cfg0.win 8).blk t).view.read (Elt Ideal) (keyOut (V c main_arg0) (V c main_arg1) (V c main_v0) (V c main_v5) (V c main_v2)) := by
  show (cfg0.win 8).cut (grid0.coords t) ((dat0 V c).after 8 t) = _
  rw [after0_8]
  unfold out0_8
  rw [View.canon_unit_zero hz]
  simp only [View.ld_unit_zero (S := S1024x1024) hz, View.ld_unit_zero (S := S256x1024) hz, View.ld_unit_zero (S := S1x256) hz, View.ld_unit_zero (S := S256x256) hz]
  rw [iblk0_eq, iblk1_eq, iblk2_eq, iblk3_eq, iblk4_eq]
  funext y
  obtain ⟨-, -, -, -, -, -, -, -, -, -, -, -, -, -, e14, e15, e16, e17, e18, e19⟩ := idx0 t
  have ht := point_lt t
  have hy0 : (y 0).val < 1024 := (y 0).isLt
  have hy1 : (y 1).val < 256 := (y 1).isLt
  have hi : ((((cfg0.win 8).blk t).view.emb y) 0).val = t.val * 1024 + (y 0).val := by
    show win0_8.index t (0 : Fin 2) * 1024 + 1 * (y 0).val = _; omega
  have hj : ((((cfg0.win 8).blk t).view.emb y) 1).val = (y 1).val := by
    show win0_8.index t (1 : Fin 2) * 256 + 1 * (y 1).val = _; omega
  show _ = keyOut _ _ _ _ _ (((cfg0.win 8).blk t).view.emb y)
  unfold keyOut
  have hd : ((((cfg0.win 8).blk t).view.emb y) 0).val / 1024 = t.val := by omega
  rw [hd]
  refine congrArg _ (funext fun a => Fin.ext ?_)
  match a with
  | ⟨0, _⟩ => show (y 0).val = ((((cfg0.win 8).blk t).view.emb y) 0).val % 1024; omega
  | ⟨1, _⟩ => show (y 1).val = ((((cfg0.win 8).blk t).view.emb y) 1).val; omega

theorem mem_blk8 (t : Fin cfg0.N) (i : S8192x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v8_1).slice (win0_8.rect t)).set ↔ _
  rw [View.set_slice_whole, Rect.mem_set_unit]
  exact Iff.rfl

theorem cover8 (i : S8192x256.Idx) : ∃ t : Fin cfg0.N, (cfg0.win 8).flush t = true ∧ i ∈ ((cfg0.win 8).blk t).view.set := by
  have hi0 : (i 0).val < 8192 := (i 0).isLt
  have hi1 : (i 1).val < 256 := (i 1).isLt
  refine ⟨⟨(i 0).val / 1024, by rw [show cfg0.N = 8 from N_0]; omega⟩, flush0_8 _, ?_⟩
  rw [mem_blk8]
  obtain ⟨-, -, -, -, -, -, -, -, -, -, -, -, -, -, e14, e15, e16, e17, e18, e19⟩ := idx0 ⟨(i 0).val / 1024, by rw [show cfg0.N = 8 from N_0]; omega⟩
  intro a
  match a with
  | ⟨0, _⟩ =>
    show win0_8.index _ (0 : Fin 2) * 1024 ≤ (i 0).val ∧ (i 0).val < win0_8.index _ (0 : Fin 2) * 1024 + 1024
    rw [e16]; show (i 0).val / 1024 * 1024 ≤ (i 0).val ∧ (i 0).val < (i 0).val / 1024 * 1024 + 1024; omega
  | ⟨1, _⟩ =>
    show win0_8.index _ (1 : Fin 2) * 256 ≤ (i 1).val ∧ (i 1).val < win0_8.index _ (1 : Fin 2) * 256 + 256
    rw [e17]; omega

/-- THE KEY ARRAY after the region. -/
theorem final8 (c : Dev nD) : (dat0 V c).arrAt 8 cfg0.N = keyOut (V c main_arg0) (V c main_arg1) (V c main_v0) (V c main_v5) (V c main_v2) :=
  (dat0 V c).arrAt_eq_of_cover 8 _ (fun t _ => flushed8_eq V c t) (cover8)

/-- WHAT POINT `t` WRITES BACK to the val array is block `t` of its closed form. -/
theorem flushed9_eq (c : Dev nD) (t : Fin cfg0.N) :
    (dat0 V c).flushed 9 t = ((cfg0.win 9).blk t).view.read (Elt Ideal) (valOut (V c main_arg0) (V c main_arg1) (V c main_v0) (V c main_v6) (V c main_v3)) := by
  show (cfg0.win 9).cut (grid0.coords t) ((dat0 V c).after 9 t) = _
  rw [after0_9]
  unfold out0_9
  rw [View.canon_unit_zero hz]
  simp only [View.ld_unit_zero (S := S1024x1024) hz, View.ld_unit_zero (S := S256x1024) hz, View.ld_unit_zero (S := S1x256) hz, View.ld_unit_zero (S := S256x256) hz]
  rw [iblk0_eq, iblk1_eq, iblk2_eq, iblk5_eq, iblk6_eq]
  funext y
  obtain ⟨-, -, -, -, -, -, -, -, -, -, -, -, -, -, e14, e15, e16, e17, e18, e19⟩ := idx0 t
  have ht := point_lt t
  have hy0 : (y 0).val < 1024 := (y 0).isLt
  have hy1 : (y 1).val < 256 := (y 1).isLt
  have hi : ((((cfg0.win 9).blk t).view.emb y) 0).val = t.val * 1024 + (y 0).val := by
    show win0_9.index t (0 : Fin 2) * 1024 + 1 * (y 0).val = _; omega
  have hj : ((((cfg0.win 9).blk t).view.emb y) 1).val = (y 1).val := by
    show win0_9.index t (1 : Fin 2) * 256 + 1 * (y 1).val = _; omega
  show _ = valOut _ _ _ _ _ (((cfg0.win 9).blk t).view.emb y)
  unfold valOut
  have hd : ((((cfg0.win 9).blk t).view.emb y) 0).val / 1024 = t.val := by omega
  rw [hd]
  refine congrArg _ (funext fun a => Fin.ext ?_)
  match a with
  | ⟨0, _⟩ => show (y 0).val = ((((cfg0.win 9).blk t).view.emb y) 0).val % 1024; omega
  | ⟨1, _⟩ => show (y 1).val = ((((cfg0.win 9).blk t).view.emb y) 1).val; omega

theorem mem_blk9 (t : Fin cfg0.N) (i : S8192x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v8_2).slice (win0_9.rect t)).set ↔ _
  rw [View.set_slice_whole, Rect.mem_set_unit]
  exact Iff.rfl

theorem cover9 (i : S8192x256.Idx) : ∃ t : Fin cfg0.N, (cfg0.win 9).flush t = true ∧ i ∈ ((cfg0.win 9).blk t).view.set := by
  have hi0 : (i 0).val < 8192 := (i 0).isLt
  have hi1 : (i 1).val < 256 := (i 1).isLt
  refine ⟨⟨(i 0).val / 1024, by rw [show cfg0.N = 8 from N_0]; omega⟩, flush0_9 _, ?_⟩
  rw [mem_blk9]
  obtain ⟨-, -, -, -, -, -, -, -, -, -, -, -, -, -, e14, e15, e16, e17, e18, e19⟩ := idx0 ⟨(i 0).val / 1024, by rw [show cfg0.N = 8 from N_0]; omega⟩
  intro a
  match a with
  | ⟨0, _⟩ =>
    show win0_9.index _ (0 : Fin 2) * 1024 ≤ (i 0).val ∧ (i 0).val < win0_9.index _ (0 : Fin 2) * 1024 + 1024
    rw [e18]; show (i 0).val / 1024 * 1024 ≤ (i 0).val ∧ (i 0).val < (i 0).val / 1024 * 1024 + 1024; omega
  | ⟨1, _⟩ =>
    show win0_9.index _ (1 : Fin 2) * 256 ≤ (i 1).val ∧ (i 1).val < win0_9.index _ (1 : Fin 2) * 256 + 256
    rw [e19]; omega

/-- THE VAL ARRAY after the region. -/
theorem final9 (c : Dev nD) : (dat0 V c).arrAt 9 cfg0.N = valOut (V c main_arg0) (V c main_arg1) (V c main_v0) (V c main_v6) (V c main_v3) :=
  (dat0 V c).arrAt_eq_of_cover 9 _ (fun t _ => flushed9_eq V c t) (cover9)

end Cert.KernelIdeal.ProjArray

end
-- ==== Proof.Spec.lean ====
/-
  The function both programs compute, as extended reals, written once over plain row and column indices.

  A linear layer is `a · wᵀ + b`. The hidden rows are `h = x · w1ᵀ + b1`; queries, keys and values are three linear
  layers of `h`. The score of query row `i` against key row `j` is their inner product times 1/16. Each query row's
  scores are shifted by the row's maximum, exponentiated, divided by their sum, and the resulting weights average the
  value rows; the average is added back to `h` and the last linear layer (one output column) gives one number per row.
-/
import Idealize.ShloMosaic.PureOps.Ideal

noncomputable section

namespace Attn

open Idealize.ShloMosaic

/-- The three float words both programs use: 1/16, minus infinity and zero. -/
abbrev sixteenth : EReal := Ideal.ofBits .f32 0x3D800000#32
abbrev negInf : EReal := Ideal.ofBits .f32 0xFF800000#32
abbrev zeroW : EReal := Ideal.ofBits .f32 0x00000000#32

/-- A linear layer: row `i` of `a` against row `d` of `w`, plus the bias. -/
def lin {n k o : ℕ} (a : Fin n → Fin k → EReal) (w : Fin o → Fin k → EReal) (b : Fin o → EReal) (i : Fin n) (d : Fin o) : EReal :=
  (∑ t : Fin k, a i t * w d t) + b d

/-- The scaled inner product of query row `i` and key row `j`. -/
def score (q k : Fin 8192 → Fin 256 → EReal) (i j : Fin 8192) : EReal :=
  (∑ d : Fin 256, q i d * k j d) * sixteenth

/-- The largest score of a row (the maximum against minus infinity of the fold of `max` from minus infinity). -/
def rowMax (s : Fin 8192 → EReal) : EReal :=
  max negInf (Finset.univ.fold max negInf s)

/-- The softmax-weighted average of the value rows, coordinate `d`. -/
def attend (s : Fin 8192 → EReal) (v : Fin 8192 → Fin 256 → EReal) (d : Fin 256) : EReal :=
  ∑ j : Fin 8192, Ideal.div (Ideal.exp (s j - rowMax s)) (zeroW + ∑ j' : Fin 8192, Ideal.exp (s j' - rowMax s)) * v j d

/-- One output number per row. -/
def out (x : Fin 8192 → Fin 1024 → EReal) (w1 : Fin 256 → Fin 1024 → EReal) (b1 : Fin 256 → EReal)
    (qw : Fin 256 → Fin 256 → EReal) (qb : Fin 256 → EReal) (kw : Fin 256 → Fin 256 → EReal) (kb : Fin 256 → EReal)
    (vw : Fin 256 → Fin 256 → EReal) (vb : Fin 256 → EReal) (w2 : Fin 256 → EReal) (b2 : EReal) (i : Fin 8192) : EReal :=
  (∑ d : Fin 256, (lin x w1 b1 i d
      + attend (score (lin (lin x w1 b1) qw qb) (lin (lin x w1 b1) kw kb) i) (lin (lin x w1 b1) vw vb) d) * w2 d) + b2

end Attn

end
-- ==== Proof.ProjBlock.lean ====
import proofs.«160817_j35158602285581_2_alg».proof.Proof.Gen.KernelIdeal.Frame
import proofs.«160817_j35158602285581_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The kernel's linear layers, read at an index

Each projection payload is a matrix product `a · wᵀ` (both operands contracted along their
second axis) plus a bias row broadcast over the rows, between format changes and shape casts
that are the identity on extended reals.  Read at row `r` and column `d` it is the
specification's linear layer `(∑ t, a r t * w d t) + b d`.
-/

set_option maxRecDepth 16384

namespace Cert.KernelIdeal.ProjBlock

open Idealize.ShloMosaic Idealize.ShloMosaic.ValueIdx Cert.KernelIdeal Cert.KernelIdeal.Gen

/-! ## The product `x · w1ᵀ`: contraction extent 1024 -/

/-- The left operand's row coordinate is the output's row coordinate. -/
theorem dx_lhs0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl

/-- The right operand's row coordinate is the output's column coordinate. -/
theorem dx_rhs0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl

/-- The product into the zero accumulator, at `(r, d)`: the inner product of row `r` of the left
    operand with row `d` of the right one. -/
theorem dx_apply (prec : Option ContractPrecision) (x : FVec Ideal S1024x1024 .f32) (w : FVec Ideal S256x1024 .f32)
    (r : Fin 1024) (d : Fin 256) :
    matmul dot_S1024x1024_S256x1024_S1024x256_1_1_0_0_n_n prec x w (constant S1024x256 .f32 0x00000000#32) (ix2 r d) =
      ∑ t : Fin 1024, x (ix2 r t) * w (ix2 d t) := by
  simp only [matmul]
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 r d) ((contrEquiv1 dot_S1024x1024_S256x1024_S1024x256_1_1_0_0_n_n 1024 rfl rfl).symm k) = ix2 r k :=
    funext fun a => Fin.ext (by
      match a with
      | ⟨0, _⟩ => exact dx_lhs0 _ _
      | ⟨1, _⟩ => exact (dot_S1024x1024_S256x1024_S1024x256_1_1_0_0_n_n.lhsIdx_val_of_single rfl _ _).trans hk)
  have er : dot_S1024x1024_S256x1024_S1024x256_1_1_0_0_n_n.rhsIdx (ix2 r d) ((contrEquiv1 dot_S1024x1024_S256x1024_S1024x256_1_1_0_0_n_n 1024 rfl rfl).symm k) = ix2 d k :=
    funext fun a => Fin.ext (by
      match a with
      | ⟨0, _⟩ => exact dx_rhs0 _ _
      | ⟨1, _⟩ => exact (dot_S1024x1024_S256x1024_S1024x256_1_1_0_0_n_n.rhsIdx_val_of_single rfl _ _).trans hk)
  rw [el, er]

/-! ## The products `h · wᵀ`: contraction extent 256 -/

/-- The left operand's row coordinate is the output's row coordinate. -/
theorem dh_lhs0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide),
    dif_pos (show (0 : Fin S1024x256.rank) ∈ dot_S1024x256_S256x256_S1024x256_1_1_0_0_n_n.lhsNonContracting by decide)]
  rfl

/-- The right operand's row coordinate is the output's column coordinate. -/
theorem dh_rhs0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide),
    dif_pos (show (0 : Fin S256x256.rank) ∈ dot_S1024x256_S256x256_S1024x256_1_1_0_0_n_n.rhsNonContracting by decide)]
  rfl

/-- The product into the zero accumulator, at `(r, d)`. -/
theorem dh_apply (prec : Option ContractPrecision) (a : FVec Ideal S1024x256 .bf16) (w : FVec Ideal S256x256 .bf16)
    (r : Fin 1024) (d : Fin 256) :
    matmul dot_S1024x256_S256x256_S1024x256_1_1_0_0_n_n prec a w (constant S1024x256 .f32 0x00000000#32) (ix2 r d) =
      ∑ t : Fin 256, a (ix2 r t) * w (ix2 d t) := by
  simp only [matmul]
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 r d) ((contrEquiv1 dot_S1024x256_S256x256_S1024x256_1_1_0_0_n_n 256 rfl rfl).symm k) = ix2 r k :=
    funext fun a => Fin.ext (by
      match a with
      | ⟨0, _⟩ => exact dh_lhs0 _ _
      | ⟨1, _⟩ => exact (dot_S1024x256_S256x256_S1024x256_1_1_0_0_n_n.lhsIdx_val_of_single rfl _ _).trans hk)
  have er : dot_S1024x256_S256x256_S1024x256_1_1_0_0_n_n.rhsIdx (ix2 r d) ((contrEquiv1 dot_S1024x256_S256x256_S1024x256_1_1_0_0_n_n 256 rfl rfl).symm k) = ix2 d k :=
    funext fun a => Fin.ext (by
      match a with
      | ⟨0, _⟩ => exact dh_rhs0 _ _
      | ⟨1, _⟩ => exact (dot_S1024x256_S256x256_S1024x256_1_1_0_0_n_n.rhsIdx_val_of_single rfl _ _).trans hk)
  rw [el, er]

/-! ## The payloads -/

/-- The hidden block `h = x · w1ᵀ + b1`. -/
theorem k0_pay1_apply (x : Vec Ideal S1024x1024 .f32) (w : Vec Ideal S256x1024 .f32) (b : Vec Ideal S1x256 .f32)
    (r : Fin 1024) (d : Fin 256) :
    k0_pay1 x w b (ix2 r d) =
      Attn.lin (fun a t => x (ix2 a t)) (fun o t => w (ix2 o t)) (fun o => b (ix2 (0 : Fin 1) o)) r d := by
  unfold k0_pay1
  rw [addf_apply, dx_apply, broadcastTo_1b_ab_apply, shapeCast_self]
  rfl

/-- The key block `k = h · kwᵀ + kb`. -/
theorem k0_pay2_apply (x : Vec Ideal S1024x1024 .f32) (w : Vec Ideal S256x1024 .f32) (b : Vec Ideal S1x256 .f32)
    (kw : Vec Ideal S256x256 .bf16) (kb : Vec Ideal S1x256 .f32) (r : Fin 1024) (d : Fin 256) :
    k0_pay2 x w b kw kb (ix2 r d) =
      Attn.lin (fun a t => k0_pay1 x w b (ix2 a t)) (fun o t => kw (ix2 o t)) (fun o => kb (ix2 (0 : Fin 1) o)) r d := by
  unfold k0_pay2
  rw [truncf_apply, addf_apply, dh_apply, broadcastTo_1b_ab_apply, shapeCast_self, shapeCast_self]
  rfl

/-- The value block `v = h · vwᵀ + vb`. -/
theorem k0_pay3_apply (x : Vec Ideal S1024x1024 .f32) (w : Vec Ideal S256x1024 .f32) (b : Vec Ideal S1x256 .f32)
    (vw : Vec Ideal S256x256 .bf16) (vb : Vec Ideal S1x256 .f32) (r : Fin 1024) (d : Fin 256) :
    k0_pay3 x w b vw vb (ix2 r d) =
      Attn.lin (fun a t => k0_pay1 x w b (ix2 a t)) (fun o t => vw (ix2 o t)) (fun o => vb (ix2 (0 : Fin 1) o)) r d := by
  unfold k0_pay3
  rw [truncf_apply, addf_apply, dh_apply, broadcastTo_1b_ab_apply, shapeCast_self, shapeCast_self]
  rfl

/-- A block cast to its own shape is the block. -/
theorem k1_pay2_eq (hb : Vec Ideal S1024x256 .f32) : k1_pay2 hb = hb := by
  unfold k1_pay2
  exact shapeCast_self _ _

/-- The query block `q = h · qwᵀ + qb`. -/
theorem k1_pay3_apply (hb : Vec Ideal S1024x256 .f32) (qw : Vec Ideal S256x256 .bf16) (qb : Vec Ideal S1x256 .f32)
    (r : Fin 1024) (d : Fin 256) :
    k1_pay3 hb qw qb (ix2 r d) =
      Attn.lin (fun a t => hb (ix2 a t)) (fun o t => qw (ix2 o t)) (fun o => qb (ix2 (0 : Fin 1) o)) r d := by
  unfold k1_pay3
  rw [truncf_apply, addf_apply, dh_apply, broadcastTo_1b_ab_apply, shapeCast_self, shapeCast_self, k1_pay2_eq]
  rfl

end Cert.KernelIdeal.ProjBlock
-- ==== Proof.ProjValue.lean ====
/-
  The projection region's three output arrays, read at an index, are the specification's linear layers: the hidden
  array is the first layer of the input, and the key and value arrays are the key and value layers of the hidden rows.
  Row `i` is computed by block `i / 1024` at its row `i mod 1024`, and that block's input rows are rows
  `1024 (i / 1024) …` of the input, so the block's row `i mod 1024` is the input's row `i`.
-/
import proofs.«160817_j35158602285581_2_alg».proof.Proof.ProjArray
import proofs.«160817_j35158602285581_2_alg».proof.Proof.ProjBlock
import proofs.«160817_j35158602285581_2_alg».proof.Proof.Spec

set_option maxRecDepth 16384

noncomputable section

namespace Cert.KernelIdeal.ProjValue

open Idealize.ShloMosaic Idealize.ShloMosaic.ValueIdx Cert.KernelIdeal Cert.KernelIdeal.Gen Cert.KernelIdeal.ProjArray
  Cert.KernelIdeal.ProjBlock

/-- Row `i mod 1024` of block `i / 1024` of the input is the input's row `i`. -/
theorem xBlock_apply (X : FVec Ideal S8192x1024 .f32) (i : Fin 8192) (t : Fin 1024) :
    xBlock X (i.val / 1024) (ix2 (⟨i.val % 1024, Nat.mod_lt _ (by decide)⟩ : Fin 1024) t) = X (ix2 i t) := by
  show X _ = X _
  refine congrArg X (funext fun a => Fin.ext ?_)
  have hi := i.isLt
  match a with
  | ⟨0, _⟩ => show (i.val / 1024 % 8) * 1024 + i.val % 1024 = i.val; omega
  | ⟨1, _⟩ => rfl

/-- The hidden row `i`, as its block computes it, is the first linear layer at row `i`. -/
theorem hid_block_apply (X : FVec Ideal S8192x1024 .f32) (W1 : FVec Ideal S256x1024 .f32) (B1 : FVec Ideal S1x256 .f32)
    (i : Fin 8192) (d : Fin 256) :
    k0_pay1 (F := Ideal) (xBlock X (i.val / 1024)) W1 B1 (ix2 (⟨i.val % 1024, Nat.mod_lt _ (by decide)⟩ : Fin 1024) d)
      = Attn.lin (fun a t => X (ix2 a t)) (fun o t => W1 (ix2 o t)) (fun o => B1 (ix2 (0 : Fin 1) o)) i d := by
  rw [k0_pay1_apply]
  unfold Attn.lin
  refine congrArg (· + B1 (ix2 (0 : Fin 1) d)) (Finset.sum_congr rfl fun t _ => ?_)
  show xBlock X (i.val / 1024) (ix2 (⟨i.val % 1024, Nat.mod_lt _ (by decide)⟩ : Fin 1024) t) * W1 (ix2 d t) = X (ix2 i t) * W1 (ix2 d t)
  rw [xBlock_apply]

/-- The hidden array at an index. -/
theorem hidOut_apply (X : FVec Ideal S8192x1024 .f32) (W1 : FVec Ideal S256x1024 .f32) (B1 : FVec Ideal S1x256 .f32)
    (i : Fin 8192) (d : Fin 256) :
    hidOut X W1 B1 (ix2 i d) = Attn.lin (fun a t => X (ix2 a t)) (fun o t => W1 (ix2 o t)) (fun o => B1 (ix2 (0 : Fin 1) o)) i d := by
  show k0_pay1 (F := Ideal) (xBlock X (i.val / 1024)) W1 B1 (ix2 (⟨i.val % 1024, Nat.mod_lt _ (by decide)⟩ : Fin 1024) d) = _
  exact hid_block_apply X W1 B1 i d

/-- The key array at an index: the key layer of the hidden rows. -/
theorem keyOut_apply (X : FVec Ideal S8192x1024 .f32) (W1 : FVec Ideal S256x1024 .f32) (B1 : FVec Ideal S1x256 .f32)
    (KW : FVec Ideal S256x256 .bf16) (KB : FVec Ideal S1x256 .f32) (i : Fin 8192) (d : Fin 256) :
    keyOut X W1 B1 KW KB (ix2 i d)
      = Attn.lin (Attn.lin (fun a t => X (ix2 a t)) (fun o t => W1 (ix2 o t)) (fun o => B1 (ix2 (0 : Fin 1) o)))
          (fun o t => KW (ix2 o t)) (fun o => KB (ix2 (0 : Fin 1) o)) i d := by
  show k0_pay2 (F := Ideal) (xBlock X (i.val / 1024)) W1 B1 KW KB (ix2 (⟨i.val % 1024, Nat.mod_lt _ (by decide)⟩ : Fin 1024) d) = _
  rw [k0_pay2_apply]
  show (∑ t : Fin 256, k0_pay1 (F := Ideal) (xBlock X (i.val / 1024)) W1 B1 (ix2 (⟨i.val % 1024, Nat.mod_lt _ (by decide)⟩ : Fin 1024) t) * KW (ix2 d t)) + KB (ix2 (0 : Fin 1) d)
    = (∑ t : Fin 256, Attn.lin (fun a t => X (ix2 a t)) (fun o t => W1 (ix2 o t)) (fun o => B1 (ix2 (0 : Fin 1) o)) i t * KW (ix2 d t)) + KB (ix2 (0 : Fin 1) d)
  refine congrArg (· + KB (ix2 (0 : Fin 1) d)) (Finset.sum_congr rfl fun t _ => ?_)
  rw [hid_block_apply]

/-- The value array at an index: the value layer of the hidden rows. -/
theorem valOut_apply (X : FVec Ideal S8192x1024 .f32) (W1 : FVec Ideal S256x1024 .f32) (B1 : FVec Ideal S1x256 .f32)
    (VW : FVec Ideal S256x256 .bf16) (VB : FVec Ideal S1x256 .f32) (i : Fin 8192) (d : Fin 256) :
    valOut X W1 B1 VW VB (ix2 i d)
      = Attn.lin (Attn.lin (fun a t => X (ix2 a t)) (fun o t => W1 (ix2 o t)) (fun o => B1 (ix2 (0 : Fin 1) o)))
          (fun o t => VW (ix2 o t)) (fun o => VB (ix2 (0 : Fin 1) o)) i d := by
  show k0_pay3 (F := Ideal) (xBlock X (i.val / 1024)) W1 B1 VW VB (ix2 (⟨i.val % 1024, Nat.mod_lt _ (by decide)⟩ : Fin 1024) d) = _
  rw [k0_pay3_apply]
  show (∑ t : Fin 256, k0_pay1 (F := Ideal) (xBlock X (i.val / 1024)) W1 B1 (ix2 (⟨i.val % 1024, Nat.mod_lt _ (by decide)⟩ : Fin 1024) t) * VW (ix2 d t)) + VB (ix2 (0 : Fin 1) d)
    = (∑ t : Fin 256, Attn.lin (fun a t => X (ix2 a t)) (fun o t => W1 (ix2 o t)) (fun o => B1 (ix2 (0 : Fin 1) o)) i t * VW (ix2 d t)) + VB (ix2 (0 : Fin 1) d)
  refine congrArg (· + VB (ix2 (0 : Fin 1) d)) (Finset.sum_congr rfl fun t _ => ?_)
  rw [hid_block_apply]

end Cert.KernelIdeal.ProjValue

end
-- ==== Proof.AttnBlock.lean ====
/-
  The attention region's body as a recursion. For a block of 1024 query rows the body keeps, per row, a running
  maximum `m`, a running normaliser `l` and, per output coordinate, a running weighted sum `acc`. Each of the sixteen
  chunks of 512 keys updates them: the chunk's scores are `q · kcᵀ / 16`; the new maximum is the old one against the
  chunk's largest score; the old `l` and `acc` are rescaled by `exp (m - m')`; and the chunk adds `Σ exp (s - m')` to
  `l` and `Σ exp (s - m') · v` to `acc`. After the last chunk the row's result is `Σ_d (h + acc / l) · w2 + b2`.
  The body's stored value is exactly this recursion run on the sixteen loaded chunks, from `(-∞, 0, 0)`.
-/
import proofs.«160817_j35158602285581_2_alg».proof.Proof.Gen.KernelIdeal.Frame

set_option maxRecDepth 16384

noncomputable section

namespace Cert.KernelIdeal.AttnBlock

open Idealize.ShloMosaic Idealize.ShloMosaic.TcCoe Idealize.SL.Sem
open Cert.KernelIdeal Cert.KernelIdeal.Gen

variable {F : FTy → Type} [FloatOps F]

/-- The running maximum, the running normaliser (one column each) and the running weighted sums of a block of rows. -/
abbrev St (F : FTy → Type) := FVec F S1024x1 .f32 × FVec F S1024x1 .f32 × FVec F S1024x256 .f32

/-- A chunk's scores: the queries against the chunk's keys, times 1/16. -/
def scores (q : FVec F S1024x256 .bf16) (kc : Vec F S512x256 .bf16) : FVec F S1024x512 .f32 :=
  mulf (matmul dot_S1024x256_S512x256_S1024x512_1_1_0_0_n_n none q (shapeCast S512x256 kc shapeCasts_S512x256_S512x256) (constant S1024x512 .f32 0x00000000#32))
    (broadcast S1024x512 (Scalar.ofBits .f32 0x3D800000#32))

/-- The new running maximum: the old one against the largest score of each row of the chunk. -/
def newMax (mo : FVec F S1024x1 .f32) (s : FVec F S1024x512 .f32) : FVec F S1024x1 .f32 :=
  maximumf mo (shapeCast S1024x1 (multiReduction .maximumf [1] S1024 s 0xFF800000#32 reduces_S1024x512_S1024 (.inl rfl) rfl) shapeCasts_S1024_S1024x1)

/-- One chunk's update of the three running quantities. -/
def chunkStep (q : FVec F S1024x256 .bf16) (kc vc : Vec F S512x256 .bf16) (st : St F) : St F :=
  (newMax st.1 (scores q kc),
   addf (mulf (exp (subf st.1 (newMax st.1 (scores q kc)))) st.2.1)
     (shapeCast S1024x1 (multiReduction .add [1] S1024 (exp (subf (scores q kc) (broadcastTo S1024x512 (newMax st.1 (scores q kc)) broadcasts_S1024x1_S1024x512))) 0x00000000#32 reduces_S1024x512_S1024 (.inl rfl) rfl) shapeCasts_S1024_S1024x1),
   addf (mulf (broadcastTo S1024x256 (exp (subf st.1 (newMax st.1 (scores q kc)))) broadcasts_S1024x1_S1024x256) st.2.2)
     (matmul dot_S1024x512_S512x256_S1024x256_1_0_0_1_n_n (some .fp32) (exp (subf (scores q kc) (broadcastTo S1024x512 (newMax st.1 (scores q kc)) broadcasts_S1024x1_S1024x512)))
       (extf .f32 (shapeCast S512x256 vc shapeCasts_S512x256_S512x256) bitsLt_bf16_f32) (constant S1024x256 .f32 0x00000000#32)))

/-- Before the first chunk: maximum minus infinity, normaliser and sums zero. -/
def st0 : St F := (broadcast S1024x1 (Scalar.ofBits .f32 0xFF800000#32), broadcast S1024x1 (Scalar.ofBits .f32 0x00000000#32), broadcast S1024x256 (Scalar.ofBits .f32 0x00000000#32))

/-- After the last chunk: `Σ_d (h + acc · (1 / l)) · w2 + b2`, one number per row. -/
def finish (h : FVec F S1024x256 .f32) (st : St F) (w2 : Vec F S1x256 .f32) (b2 : Vec F S1x1 .f32) : FVec F S1024x1 .f32 :=
  addf (shapeCast S1024x1 (multiReduction .add [1] S1024
      (mulf (addf h (mulf st.2.2 (broadcastTo S1024x256 (divf (broadcast S1024x1 (Scalar.ofBits .f32 0x3F800000#32)) st.2.1) broadcasts_S1024x1_S1024x256)))
        (broadcastTo S1024x256 w2 broadcasts_S1x256_S1024x256)) 0x00000000#32 reduces_S1024x256_S1024 (.inl rfl) rfl) shapeCasts_S1024_S1024x1)
    (broadcastTo S1024x1 (shapeCast S1x1 b2 shapeCasts_S1x1_S1x1) broadcasts_S1x1_S1024x1)

/-- Chunk `c` of a key or value array: its rows `512 c … 512 c + 511` (chunk 0 again past the sixteenth). -/
def chunk (K : Vec F S8192x256 .bf16) : ℕ → Vec F S512x256 .bf16
  | 0 => View.ld K r1_3 | 1 => View.ld K r1_4 | 2 => View.ld K r1_5 | 3 => View.ld K r1_6
  | 4 => View.ld K r1_7 | 5 => View.ld K r1_8 | 6 => View.ld K r1_9 | 7 => View.ld K r1_10
  | 8 => View.ld K r1_11 | 9 => View.ld K r1_12 | 10 => View.ld K r1_13 | 11 => View.ld K r1_14
  | 12 => View.ld K r1_15 | 13 => View.ld K r1_16 | 14 => View.ld K r1_17 | 15 => View.ld K r1_18
  | _ => View.ld K r1_3

/-- The recursion over the first `n` chunks. -/
def fold (q : FVec F S1024x256 .bf16) (K V : Vec F S8192x256 .bf16) : ℕ → St F
  | 0 => st0
  | n + 1 => chunkStep q (chunk K n) (chunk V n) (fold q K V n)

set_option maxHeartbeats 1000000 in
/-- What the body leaves in the output block: the finishing step of the recursion over all sixteen chunks, the
    queries being the first linear layer of the block's hidden rows. -/
theorem out1_7_eq (x0 : Vec F S1024x256 .f32) (x1 : Vec F S256x256 .bf16) (x2 : Vec F S1x256 .f32) (x3 x4 : Vec F S8192x256 .bf16) (x5 : Vec F S1x256 .f32) (x6 : Vec F S1x1 .f32) :
    out1_7 x0 x1 x2 x3 x4 x5 x6 = View.canon [⟨r1_20, finish (k1_pay2 (View.ld x0 r1_0))
      (fold (k1_pay3 (View.ld x0 r1_0) (View.ld x1 r1_1) (View.ld x2 r1_2)) x3 x4 16) (View.ld x5 r1_2) (View.ld x6 r1_19)⟩] := rfl

end Cert.KernelIdeal.AttnBlock

end
-- ==== Proof.AttnArray.lean ====
/-
  From blocks to the array, for the attention region. Grid point `t` is handed rows `1024 t … 1024 t + 1023` of the
  hidden array and the whole of every other operand, and writes back rows `1024 t …` of the one-column output. So
  the output array, row `i`, is what the block containing row `i` computes at its row `i mod 1024`; the eight blocks
  cover all 8192 rows.
-/
import proofs.«160817_j35158602285581_2_alg».proof.Proof.AttnBlock
import Idealize.ShloMosaic.Lib.Pipeline.Value
import Idealize.ShloMosaic.Lib.ValueIdx

set_option maxRecDepth 16384

noncomputable section

namespace Cert.KernelIdeal.AttnArray

open Idealize.ShloMosaic Idealize.ShloMosaic.TcCoe Idealize.SL.Sem Idealize.ShloMosaic.ValueIdx
open Cert.KernelIdeal Cert.KernelIdeal.Gen Cert.KernelIdeal.AttnBlock

-- the region's entry contents, a parameter
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the hidden rows and the output move with the point, every other operand is whole. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 8 := lt_of_lt_of_eq t.isLt N_1

/-- Rows `1024 t … 1024 t + 1023` of a `8192 × 256` array (the block index taken mod 8). -/
def blockOf (H : FVec Ideal S8192x256 .f32) (t : ℕ) : FVec Ideal S1024x256 .f32 :=
  fun y => H (ix2 (⟨(t % 8) * 1024 + (y 0).val, by have h : (y 0).val < 1024 := (y 0).isLt; omega⟩ : Fin 8192) (y 1))

/-- The output array as one function of the operand arrays: row `i` from the block that contains it. -/
def attnOut (H : FVec Ideal S8192x256 .f32) (QW : FVec Ideal S256x256 .bf16) (QB : FVec Ideal S1x256 .f32) (K Vv : FVec Ideal S8192x256 .bf16)
    (W2 : FVec Ideal S1x256 .f32) (B2 : FVec Ideal S1x1 .f32) : FVec Ideal S8192x1 .f32 :=
  fun i => finish (k1_pay2 (blockOf H ((i 0).val / 1024))) (fold (k1_pay3 (blockOf H ((i 0).val / 1024)) QW QB) K Vv 16) W2 B2
    (ix2 (⟨(i 0).val % 1024, Nat.mod_lt _ (by decide)⟩ : Fin 1024) (0 : Fin 1))

/-- Point `t`'s block of the hidden array is its rows `1024 t …`. -/
theorem iblk0_eq (c : Dev nD) (t : Fin cfg1.N) : iblk1 V c 0 t = blockOf (V c main_v8_0) t.val := by
  funext y
  show V c main_v8_0 (((cfg1.win 0).blk t).view.emb y) = V c main_v8_0 _
  refine congrArg (V c main_v8_0) (funext fun a => Fin.ext ?_)
  obtain ⟨e0, e1, -⟩ := idx1 t
  have ht := point_lt t
  match a with
  | ⟨0, _⟩ => show win1_0.index t (0 : Fin 2) * 1024 + 1 * (y 0).val = (t.val % 8) * 1024 + (y 0).val; omega
  | ⟨1, _⟩ => show win1_0.index t (1 : Fin 2) * 256 + 1 * (y 1).val = (y 1).val; omega

theorem iblk1_eq (c : Dev nD) (t : Fin cfg1.N) : iblk1 V c 1 t = V c main_v7 := by
  funext y
  show V c main_v7 (((cfg1.win 1).blk t).view.emb y) = _
  refine congrArg (V c main_v7) (funext fun a => Fin.ext ?_)
  obtain ⟨e0, e1, e2, e3, e4, e5, e6, e7, e8, e9, e10, e11, e12, e13, e14, e15⟩ := idx1 t
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem iblk2_eq (c : Dev nD) (t : Fin cfg1.N) : iblk1 V c 2 t = V c main_v1 := by
  funext y
  show V c main_v1 (((cfg1.win 2).blk t).view.emb y) = _
  refine congrArg (V c main_v1) (funext fun a => Fin.ext ?_)
  obtain ⟨e0, e1, e2, e3, e4, e5, e6, e7, e8, e9, e10, e11, e12, e13, e14, e15⟩ := idx1 t
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem iblk3_eq (c : Dev nD) (t : Fin cfg1.N) : iblk1 V c 3 t = V c main_v8_1 := by
  funext y
  show V c main_v8_1 (((cfg1.win 3).blk t).view.emb y) = _
  refine congrArg (V c main_v8_1) (funext fun a => Fin.ext ?_)
  obtain ⟨e0, e1, e2, e3, e4, e5, e6, e7, e8, e9, e10, e11, e12, e13, e14, e15⟩ := idx1 t
  match a with
  | ⟨0, _⟩ => show win1_3.index t (0 : Fin 2) * 8192 + 1 * (y 0).val = (y 0).val; omega
  | ⟨1, _⟩ => show win1_3.index t (1 : Fin 2) * 256 + 1 * (y 1).val = (y 1).val; omega

theorem iblk4_eq (c : Dev nD) (t : Fin cfg1.N) : iblk1 V c 4 t = V c main_v8_2 := by
  funext y
  show V c main_v8_2 (((cfg1.win 4).blk t).view.emb y) = _
  refine congrArg (V c main_v8_2) (funext fun a => Fin.ext ?_)
  obtain ⟨e0, e1, e2, e3, e4, e5, e6, e7, e8, e9, e10, e11, e12, e13, e14, e15⟩ := idx1 t
  match a with
  | ⟨0, _⟩ => show win1_4.index t (0 : Fin 2) * 8192 + 1 * (y 0).val = (y 0).val; omega
  | ⟨1, _⟩ => show win1_4.index t (1 : Fin 2) * 256 + 1 * (y 1).val = (y 1).val; omega

theorem iblk5_eq (c : Dev nD) (t : Fin cfg1.N) : iblk1 V c 5 t = V c main_arg9 := by
  funext y
  show V c main_arg9 (((cfg1.win 5).blk t).view.emb y) = _
  refine congrArg (V c main_arg9) (funext fun a => Fin.ext ?_)
  obtain ⟨e0, e1, e2, e3, e4, e5, e6, e7, e8, e9, e10, e11, e12, e13, e14, e15⟩ := idx1 t
  match a with
  | ⟨0, _⟩ => show win1_5.index t (0 : Fin 2) * 1 + 1 * (y 0).val = (y 0).val; omega
  | ⟨1, _⟩ => show win1_5.index t (1 : Fin 2) * 256 + 1 * (y 1).val = (y 1).val; omega

theorem iblk6_eq (c : Dev nD) (t : Fin cfg1.N) : iblk1 V c 6 t = V c main_v4 := by
  funext y
  show V c main_v4 (((cfg1.win 6).blk t).view.emb y) = _
  refine congrArg (V c main_v4) (funext fun a => Fin.ext ?_)
  obtain ⟨e0, e1, e2, e3, e4, e5, e6, e7, e8, e9, e10, e11, e12, e13, e14, e15⟩ := idx1 t
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- WHAT POINT `t` WRITES BACK is block `t` of the closed form of the arrays as the region finds them. -/
theorem flushed_eq (c : Dev nD) (t : Fin cfg1.N) :
    (dat1 V c).flushed 7 t = ((cfg1.win 7).blk t).view.read (Elt Ideal)
      (attnOut (V c main_v8_0) (V c main_v7) (V c main_v1) (V c main_v8_1) (V c main_v8_2) (V c main_arg9) (V c main_v4)) := by
  show (cfg1.win 7).cut (grid1.coords t) ((dat1 V c).after 7 t) = _
  rw [after1_7, out1_7_eq, View.canon_unit_zero hz]
  simp only [View.ld_unit_zero (S := S1024x256) hz, View.ld_unit_zero (S := S256x256) hz, View.ld_unit_zero (S := S1x256) hz, View.ld_unit_zero (S := S1x1) hz]
  rw [iblk0_eq, iblk1_eq, iblk2_eq, iblk3_eq, iblk4_eq, iblk5_eq, iblk6_eq]
  funext y
  obtain ⟨-, -, -, -, -, -, -, -, -, -, -, -, -, -, e14, e15⟩ := idx1 t
  have ht := point_lt t
  have hy0 : (y 0).val < 1024 := (y 0).isLt
  have hy1 : (y 1).val < 1 := (y 1).isLt
  have hi : ((((cfg1.win 7).blk t).view.emb y) 0).val = t.val * 1024 + (y 0).val := by
    show win1_7.index t (0 : Fin 2) * 1024 + 1 * (y 0).val = _; omega
  show _ = attnOut _ _ _ _ _ _ _ (((cfg1.win 7).blk t).view.emb y)
  unfold attnOut
  have hd : ((((cfg1.win 7).blk t).view.emb y) 0).val / 1024 = t.val := by omega
  rw [hd]
  refine congrArg _ (funext fun a => Fin.ext ?_)
  match a with
  | ⟨0, _⟩ => show (y 0).val = ((((cfg1.win 7).blk t).view.emb y) 0).val % 1024; omega
  | ⟨1, _⟩ => show (y 1).val = 0; omega

/-- An index of the output array is in point `t`'s block iff each coordinate is in the block's range. -/
theorem mem_blk (t : Fin cfg1.N) (i : S8192x1.Idx) :
    i ∈ ((cfg1.win 7).blk t).view.set ↔ ∀ a : Fin 2, win1_7.index t a * S1024x1.size a ≤ (i a).val ∧ (i a).val < win1_7.index t a * S1024x1.size a + S1024x1.size a := by
  show i ∈ ((View.whole main_v9).slice (win1_7.rect t)).set ↔ _
  rw [View.set_slice_whole, Rect.mem_set_unit]
  exact Iff.rfl

/-- Every row of the output is in some point's block: row `i` in block `i / 1024`. -/
theorem cover (i : S8192x1.Idx) : ∃ t : Fin cfg1.N, (cfg1.win 7).flush t = true ∧ i ∈ ((cfg1.win 7).blk t).view.set := by
  have hi0 : (i 0).val < 8192 := (i 0).isLt
  have hi1 : (i 1).val < 1 := (i 1).isLt
  refine ⟨⟨(i 0).val / 1024, by rw [show cfg1.N = 8 from N_1]; omega⟩, flush1_7 _, ?_⟩
  rw [mem_blk]
  obtain ⟨-, -, -, -, -, -, -, -, -, -, -, -, -, -, e14, e15⟩ := idx1 ⟨(i 0).val / 1024, by rw [show cfg1.N = 8 from N_1]; omega⟩
  intro a
  match a with
  | ⟨0, _⟩ =>
    show win1_7.index _ (0 : Fin 2) * 1024 ≤ (i 0).val ∧ (i 0).val < win1_7.index _ (0 : Fin 2) * 1024 + 1024
    rw [e14]; show (i 0).val / 1024 * 1024 ≤ (i 0).val ∧ (i 0).val < (i 0).val / 1024 * 1024 + 1024; omega
  | ⟨1, _⟩ =>
    show win1_7.index _ (1 : Fin 2) * 1 ≤ (i 1).val ∧ (i 1).val < win1_7.index _ (1 : Fin 2) * 1 + 1
    rw [e15]; omega

/-- THE OUTPUT ARRAY after the region: the closed form of the arrays as the region finds them. -/
theorem final (c : Dev nD) :
    (dat1 V c).arrAt 7 cfg1.N
      = attnOut (V c main_v8_0) (V c main_v7) (V c main_v1) (V c main_v8_1) (V c main_v8_2) (V c main_arg9) (V c main_v4) :=
  (dat1 V c).arrAt_eq_of_cover 7 _ (fun t _ => flushed_eq V c t) (cover)

end Cert.KernelIdeal.AttnArray

end
-- ==== Proof.LibKeepdims.lean ====
/-
  Two layout facts for a COLUMN, read at an index: an array of `a` numbers cast to an `a × 1` column holds the same
  numbers, and an `a × 1` column broadcast across `b` columns repeats its entry along each row.
-/
import Idealize.ShloMosaic.Lib.ValueLayout
import Idealize.ShloMosaic.Lib.Pipeline.Value

noncomputable section

namespace Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

end
-- ==== Proof.LibOnlineSoftmax.lean ====
import Idealize.ShloMosaic.PureOps.Ideal

/-!
# Online softmax against dense softmax, over the extended reals

A flash-style attention kernel sweeps the keys chunk by chunk, keeping a running shift `m`,
a running normaliser `l = Σ exp (s - m)` and a running weighted sum `a = Σ exp (s - m) · v`;
a new chunk replaces `m` by a larger shift `m'` and rescales `l` and `a` by `exp (m - m')`.
The dense reference subtracts one global shift from every score.  Softmax does not depend on
the shift, so both equal the real number `(Σ exp s · v) / (Σ exp s)` as soon as every score and
value is a finite real.  All sums are moved into `ℝ` first, since distributivity and
cancellation fail at the infinities of `EReal`.
-/

namespace OnlineSoftmax

open Idealize.ShloMosaic

noncomputable section

/-- One chunk of the online recursion on the state `(shift, normaliser, weighted sum)`. -/
def step {J : Type} [Fintype J] (s v : J → EReal) (st : EReal × EReal × EReal) : EReal × EReal × EReal :=
  (max st.1 (Finset.univ.fold max ⊥ s),
   Ideal.exp (st.1 - max st.1 (Finset.univ.fold max ⊥ s)) * st.2.1 + ∑ j, Ideal.exp (s j - max st.1 (Finset.univ.fold max ⊥ s)),
   Ideal.exp (st.1 - max st.1 (Finset.univ.fold max ⊥ s)) * st.2.2 + ∑ j, Ideal.exp (s j - max st.1 (Finset.univ.fold max ⊥ s)) * v j)

/-- The online recursion over the first `n` chunks, from the empty state `(⊥, 0, 0)`. -/
def run {J : Type} [Fintype J] (s v : ℕ → J → EReal) : ℕ → EReal × EReal × EReal
  | 0 => (⊥, 0, 0)
  | n + 1 => step (s n) (v n) (run s v n)

/-- The coercion `ℝ → EReal` commutes with finite sums. -/
theorem coe_sum {ι : Type} (S : Finset ι) (f : ι → ℝ) :
    (∑ i ∈ S, ((f i : ℝ) : EReal)) = (((∑ i ∈ S, f i) : ℝ) : EReal) := by
  classical
  induction S using Finset.induction_on with
  | empty => simp
  | insert a S ha ih => rw [Finset.sum_insert ha, Finset.sum_insert ha, ih, EReal.coe_add]

/-- The coercion `ℝ → EReal` is monotone, hence commutes with `max`. -/
theorem coe_max (x y : ℝ) : ((max x y : ℝ) : EReal) = max (x : EReal) (y : EReal) :=
  EReal.coe_strictMono.monotone.map_max

/-- Folding `max` over finitely many reals, on top of one more real, stays real. -/
theorem max_fold_real {P : Type} (f : P → ℝ) (S : Finset P) (a : ℝ) :
    ∃ M : ℝ, max (a : EReal) (S.fold max (⊥ : EReal) (fun p => ((f p : ℝ) : EReal))) = (M : EReal) := by
  classical
  induction S using Finset.induction_on generalizing a with
  | empty => exact ⟨a, by simp⟩
  | insert b S hb ih =>
    obtain ⟨M, hM⟩ := ih (f b)
    refine ⟨max a M, ?_⟩
    rw [Finset.fold_insert hb, hM, coe_max]

/-- The running maximum of finitely many (at least one) reals, started from `⊥`, is a real. -/
theorem fold_max_real {P : Type} [Fintype P] [Nonempty P] (f : P → ℝ) :
    ∃ M : ℝ, (Finset.univ.fold max (⊥ : EReal) (fun p => ((f p : ℝ) : EReal))) = (M : EReal) := by
  classical
  obtain ⟨a⟩ := ‹Nonempty P›
  obtain ⟨M, hM⟩ := max_fold_real f (Finset.univ.erase a) (f a)
  refine ⟨M, ?_⟩
  rw [← Finset.insert_erase (Finset.mem_univ a), Finset.fold_insert (Finset.notMem_erase a _)]
  exact hM

theorem max_bot_fold_real {P : Type} [Fintype P] [Nonempty P] (f : P → ℝ) :
    ∃ M : ℝ, max (⊥ : EReal) (Finset.univ.fold max (⊥ : EReal) (fun p => ((f p : ℝ) : EReal))) = (M : EReal) := by
  obtain ⟨M, hM⟩ := fold_max_real f
  exact ⟨M, by rw [hM]; exact max_eq_right bot_le⟩

theorem max_coe_fold_real {P : Type} [Fintype P] [Nonempty P] (f : P → ℝ) (m : ℝ) :
    ∃ M : ℝ, (Finset.univ.fold max (⊥ : EReal) (fun p => ((f p : ℝ) : EReal))) = (M : EReal) ∧
      max (m : EReal) (Finset.univ.fold max (⊥ : EReal) (fun p => ((f p : ℝ) : EReal))) = ((max m M : ℝ) : EReal) := by
  obtain ⟨M, hM⟩ := fold_max_real f
  exact ⟨M, hM, by rw [hM, coe_max]⟩

/-- One chunk of real scores applied to the empty state `(⊥, 0, 0)`: the factor `exp (⊥ - M)`
    is `exp ⊥ = 0`, so only the chunk's own sums remain. -/
theorem step_bot {J : Type} [Fintype J] (sr vr : J → ℝ) (M : ℝ)
    (hM : Finset.univ.fold max (⊥ : EReal) (fun j => ((sr j : ℝ) : EReal)) = (M : EReal)) :
    step (fun j => ((sr j : ℝ) : EReal)) (fun j => ((vr j : ℝ) : EReal)) (⊥, 0, 0) =
      ((M : EReal), (((∑ j, Real.exp (sr j - M)) : ℝ) : EReal),
        (((∑ j, Real.exp (sr j - M) * vr j) : ℝ) : EReal)) := by
  have hmax : max (⊥ : EReal) (M : EReal) = (M : EReal) := max_eq_right bot_le
  simp only [step, hM, hmax, EReal.bot_sub, Ideal.exp_bot, zero_mul, zero_add, ← EReal.coe_sub,
    Ideal.exp_coe, ← EReal.coe_mul, coe_sum]

/-- One chunk of real scores applied to a real state: every component stays real. -/
theorem step_coe {J : Type} [Fintype J] (sr vr : J → ℝ) (M m l a : ℝ)
    (hM : Finset.univ.fold max (⊥ : EReal) (fun j => ((sr j : ℝ) : EReal)) = (M : EReal)) :
    step (fun j => ((sr j : ℝ) : EReal)) (fun j => ((vr j : ℝ) : EReal))
        ((m : EReal), (l : EReal), (a : EReal)) =
      (((max m M : ℝ) : EReal),
       ((Real.exp (m - max m M) * l + ∑ j, Real.exp (sr j - max m M) : ℝ) : EReal),
       ((Real.exp (m - max m M) * a + ∑ j, Real.exp (sr j - max m M) * vr j : ℝ) : EReal)) := by
  simp only [step, hM, ← coe_max, ← EReal.coe_sub, Ideal.exp_coe, ← EReal.coe_mul, coe_sum,
    ← EReal.coe_add]

/-- After `n + 1` chunks of real scores and values the state is `(m, Σ exp (s - m), Σ exp (s - m) · v)`
    for some real shift `m`, the sums running over everything seen so far. -/
theorem run_real {J : Type} [Fintype J] [Nonempty J] (s v : ℕ → J → EReal) (sr vr : ℕ → J → ℝ)
    (hs : ∀ c j, s c j = ((sr c j : ℝ) : EReal)) (hv : ∀ c j, v c j = ((vr c j : ℝ) : EReal)) (n : ℕ) :
    ∃ m : ℝ, run s v (n + 1) = ((m : EReal),
      (((∑ c ∈ Finset.range (n + 1), ∑ j, Real.exp (sr c j - m)) : ℝ) : EReal),
      (((∑ c ∈ Finset.range (n + 1), ∑ j, Real.exp (sr c j - m) * vr c j) : ℝ) : EReal)) := by
  have hs' : ∀ c, s c = fun j => ((sr c j : ℝ) : EReal) := fun c => funext (hs c)
  have hv' : ∀ c, v c = fun j => ((vr c j : ℝ) : EReal) := fun c => funext (hv c)
  induction n with
  | zero =>
    obtain ⟨M, hM⟩ := fold_max_real (sr 0)
    refine ⟨M, ?_⟩
    show step (s 0) (v 0) (⊥, 0, 0) = _
    rw [hs' 0, hv' 0, step_bot (sr 0) (vr 0) M hM]
    simp only [zero_add, Finset.sum_range_one]
  | succ n ih =>
    obtain ⟨m, hm⟩ := ih
    obtain ⟨M, hM⟩ := fold_max_real (sr (n + 1))
    refine ⟨max m M, ?_⟩
    show step (s (n + 1)) (v (n + 1)) (run s v (n + 1)) = _
    rw [hm, hs' (n + 1), hv' (n + 1), step_coe (sr (n + 1)) (vr (n + 1)) M m _ _ hM]
    -- rescaling by exp (m - m') moves every old term from the shift m to the shift m'
    have key : ∀ x : ℝ, Real.exp (m - max m M) * Real.exp (x - m) = Real.exp (x - max m M) := by
      intro x
      rw [← Real.exp_add]
      congr 1
      ring
    have hl : Real.exp (m - max m M) * (∑ c ∈ Finset.range (n + 1), ∑ j, Real.exp (sr c j - m)) +
          ∑ j, Real.exp (sr (n + 1) j - max m M) =
        ∑ c ∈ Finset.range (n + 1 + 1), ∑ j, Real.exp (sr c j - max m M) := by
      rw [Finset.sum_range_succ _ (n + 1), Finset.mul_sum]
      simp_rw [Finset.mul_sum, key]
    have ha : Real.exp (m - max m M) *
            (∑ c ∈ Finset.range (n + 1), ∑ j, Real.exp (sr c j - m) * vr c j) +
          ∑ j, Real.exp (sr (n + 1) j - max m M) * vr (n + 1) j =
        ∑ c ∈ Finset.range (n + 1 + 1), ∑ j, Real.exp (sr c j - max m M) * vr c j := by
      rw [Finset.sum_range_succ _ (n + 1), Finset.mul_sum]
      simp_rw [Finset.mul_sum, ← mul_assoc, key]
    rw [hl, ha]

/-- The online recursion's quotient is the softmax-weighted average `(Σ exp s · v) / (Σ exp s)`:
    the common factor `exp (-m)` cancels between the weighted sum and the normaliser. -/
theorem online_eq {J : Type} [Fintype J] [Nonempty J] (s v : ℕ → J → EReal) (sr vr : ℕ → J → ℝ)
    (hs : ∀ c j, s c j = ((sr c j : ℝ) : EReal)) (hv : ∀ c j, v c j = ((vr c j : ℝ) : EReal)) (n : ℕ) :
    (run s v (n + 1)).2.2 * Ideal.div 1 (run s v (n + 1)).2.1 =
      ((((∑ c ∈ Finset.range (n + 1), ∑ j, Real.exp (sr c j) * vr c j) /
          (∑ c ∈ Finset.range (n + 1), ∑ j, Real.exp (sr c j))) : ℝ) : EReal) := by
  obtain ⟨m, hm⟩ := run_real s v sr vr hs hv n
  rw [hm]
  dsimp only
  have hpos : 0 < ∑ c ∈ Finset.range (n + 1), ∑ j, Real.exp (sr c j - m) :=
    Finset.sum_pos (fun c _ => Finset.sum_pos (fun j _ => Real.exp_pos _) Finset.univ_nonempty)
      Finset.nonempty_range_add_one
  have hpos' : 0 < ∑ c ∈ Finset.range (n + 1), ∑ j, Real.exp (sr c j) :=
    Finset.sum_pos (fun c _ => Finset.sum_pos (fun j _ => Real.exp_pos _) Finset.univ_nonempty)
      Finset.nonempty_range_add_one
  rw [Ideal.div_coe hpos.ne', one_mul, ← EReal.coe_mul]
  congr 1
  have hl : (∑ c ∈ Finset.range (n + 1), ∑ j, Real.exp (sr c j - m)) =
      (∑ c ∈ Finset.range (n + 1), ∑ j, Real.exp (sr c j)) / Real.exp m := by
    simp_rw [Real.exp_sub, ← Finset.sum_div]
  have ha : (∑ c ∈ Finset.range (n + 1), ∑ j, Real.exp (sr c j - m) * vr c j) =
      (∑ c ∈ Finset.range (n + 1), ∑ j, Real.exp (sr c j) * vr c j) / Real.exp m := by
    simp_rw [Real.exp_sub, div_mul_eq_mul_div, ← Finset.sum_div]
  rw [hl, ha]
  have hm0 : Real.exp m ≠ 0 := (Real.exp_pos m).ne'
  have hS : (∑ c ∈ Finset.range (n + 1), ∑ j, Real.exp (sr c j)) ≠ 0 := hpos'.ne'
  field_simp

/-- The dense softmax with any real shift `M` is the same weighted average. -/
theorem dense_eq {P : Type} [Fintype P] [Nonempty P] (s v : P → EReal) (sr vr : P → ℝ)
    (hs : ∀ p, s p = ((sr p : ℝ) : EReal)) (hv : ∀ p, v p = ((vr p : ℝ) : EReal)) (M : ℝ) :
    (∑ p, Ideal.div (Ideal.exp (s p - (M : EReal))) (0 + ∑ p', Ideal.exp (s p' - (M : EReal))) * v p) =
      ((((∑ p, Real.exp (sr p) * vr p) / (∑ p, Real.exp (sr p))) : ℝ) : EReal) := by
  have hpos : 0 < ∑ p, Real.exp (sr p - M) :=
    Finset.sum_pos (fun p _ => Real.exp_pos _) Finset.univ_nonempty
  have hpos' : 0 < ∑ p, Real.exp (sr p) :=
    Finset.sum_pos (fun p _ => Real.exp_pos _) Finset.univ_nonempty
  simp only [hs, hv, ← EReal.coe_sub, Ideal.exp_coe, coe_sum, zero_add, Ideal.div_coe hpos.ne',
    ← EReal.coe_mul]
  congr 1
  have hm0 : Real.exp M ≠ 0 := (Real.exp_pos M).ne'
  have hS : (∑ p, Real.exp (sr p)) ≠ 0 := hpos'.ne'
  have hterm : ∀ p, Real.exp (sr p) / Real.exp M *
        (1 / ((∑ p', Real.exp (sr p')) / Real.exp M)) * vr p =
      Real.exp (sr p) * vr p / (∑ p', Real.exp (sr p')) := by
    intro p
    field_simp
  simp_rw [Real.exp_sub, ← Finset.sum_div, hterm]
  rw [Finset.sum_div]

/-- A sum over `n * k` positions, cut into `n` consecutive chunks of `k`. -/
theorem sum_chunks (n k : ℕ) (f : Fin (n * k) → ℝ) :
    (∑ p, f p) = ∑ c ∈ Finset.range n, ∑ j : Fin k,
      (if h : c * k + j.val < n * k then f ⟨c * k + j.val, h⟩ else 0) := by
  rw [Finset.sum_range, ← (finProdFinEquiv (m := n) (n := k)).sum_comp, Fintype.sum_prod_type]
  refine Finset.sum_congr rfl fun c _ => Finset.sum_congr rfl fun j _ => ?_
  have h : (c : ℕ) * k + j.val < n * k :=
    calc (c : ℕ) * k + j.val < (c : ℕ) * k + k := Nat.add_lt_add_left j.isLt _
      _ = ((c : ℕ) + 1) * k := (Nat.succ_mul _ _).symm
      _ ≤ n * k := Nat.mul_le_mul_right k c.isLt
  rw [dif_pos h]
  congr 1
  apply Fin.ext
  simp only [finProdFinEquiv_apply_val]
  rw [Nat.mul_comm, Nat.add_comm]

end

end OnlineSoftmax
-- ==== Proof.SpecFacts.lean ====
/-
  Facts about the specification's three float words and its row maximum: minus infinity is the bottom element, the
  zero word is zero, one sixteenth is the real 1/16, and the maximum of a row of real scores is a real.
-/
import proofs.«160817_j35158602285581_2_alg».proof.Proof.Spec
import Idealize.ShloMosaic.PureOps.Ideal.Laws

noncomputable section

namespace Attn

open Idealize.ShloMosaic

/-- The word of minus infinity denotes the bottom element. -/
theorem negInf_eq : negInf = ⊥ := by simp [negInf, Ideal.ofBits, Ideal.ieee]

/-- The zero word denotes zero. -/
theorem zeroW_eq : zeroW = 0 := Ideal.ofBits_zero_f32

/-- The word of the score scale denotes the real 1/16. -/
theorem sixteenth_eq : sixteenth = (((1 : ℝ) / 16 : ℝ) : EReal) := by
  simp [sixteenth, Ideal.ofBits, Ideal.ieee, -EReal.coe_mul]; norm_num

/-- A fold of `max` from the bottom element over real values is the bottom element or a real. -/
theorem fold_max_bot_or_real {ι : Type} [DecidableEq ι] (t : Finset ι) (s : ι → EReal) (sr : ι → ℝ)
    (hs : ∀ j, s j = ((sr j : ℝ) : EReal)) :
    t.fold max ⊥ s = ⊥ ∨ ∃ M : ℝ, t.fold max ⊥ s = (M : EReal) := by
  induction t using Finset.induction_on with
  | empty => left; exact Finset.fold_empty
  | insert a t ha ih =>
    right
    rw [Finset.fold_insert ha, hs a]
    rcases ih with h | ⟨M, h⟩
    · rw [h]; exact ⟨sr a, max_eq_left bot_le⟩
    · rw [h]; exact ⟨max (sr a) M, EReal.coe_strictMono.monotone.map_max⟩

/-- The largest of a row of real scores is a real: the fold is at least the first score, so it is not the bottom
    element. -/
theorem rowMax_real (s : Fin 8192 → EReal) (sr : Fin 8192 → ℝ) (hs : ∀ j, s j = ((sr j : ℝ) : EReal)) :
    ∃ M : ℝ, rowMax s = (M : EReal) := by
  unfold rowMax
  rw [negInf_eq, max_eq_right bot_le]
  rcases fold_max_bot_or_real Finset.univ s sr hs with h | h
  · exfalso
    have h0 : s 0 ≤ Finset.univ.fold max ⊥ s :=
      (Finset.le_fold_max (s 0)).mpr (Or.inr ⟨0, Finset.mem_univ _, le_rfl⟩)
    rw [h, hs 0] at h0
    exact absurd h0 (not_le.mpr (EReal.bot_lt_coe _))
  · exact h

end Attn

end
-- ==== Proof.AttnRow.lean ====
/-
  The attention body at ONE query row. Every operation of a chunk's update acts row by row: the scores of row `r`
  are inner products with the chunk's key rows, the row's maximum and sums run over the chunk's 512 columns, and the
  rescaling factor `exp (m - m')` is the row's own. So the block-level recursion, read at row `r` and output
  coordinate `d`, is a recursion on three numbers: the scalar update of the online softmax, chunk after chunk.
-/
import proofs.«160817_j35158602285581_2_alg».proof.Proof.AttnBlock
import proofs.«160817_j35158602285581_2_alg».proof.Proof.LibKeepdims
import proofs.«160817_j35158602285581_2_alg».proof.Proof.LibOnlineSoftmax
import proofs.«160817_j35158602285581_2_alg».proof.Proof.Spec
import proofs.«160817_j35158602285581_2_alg».proof.Proof.SpecFacts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttnRow

open Idealize.ShloMosaic Idealize.ShloMosaic.ValueIdx
open Cert.KernelIdeal Cert.KernelIdeal.Gen Cert.KernelIdeal.AttnBlock

/-! ## The two matrix products of a chunk, read at an index -/

theorem qk_lhs0 (i : S1024x512.Idx) (q : dot_S1024x256_S512x256_S1024x512_1_1_0_0_n_n.contr.Idx) : (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem qk_rhs0 (i : S1024x512.Idx) (q : dot_S1024x256_S512x256_S1024x512_1_1_0_0_n_n.contr.Idx) : (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl

/-- Queries against a chunk's keys: entry `(r, j)` is the inner product of query row `r` and key row `j`. -/
theorem qk_apply (q : FVec Ideal S1024x256 .bf16) (kc : FVec Ideal S512x256 .bf16) (r : Fin 1024) (j : Fin 512) :
    matmul dot_S1024x256_S512x256_S1024x512_1_1_0_0_n_n none q kc (constant S1024x512 .f32 0x00000000#32) (ix2 r j)
      = ∑ d : Fin 256, q (ix2 r d) * kc (ix2 j d) := by
  simp only [matmul]
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 r j) ((contrEquiv1 dot_S1024x256_S512x256_S1024x512_1_1_0_0_n_n 256 rfl rfl).symm k) = ix2 r k := funext fun a => Fin.ext (by
    match a with
    | ⟨0, _⟩ => exact qk_lhs0 _ _
    | ⟨1, _⟩ => exact (dot_S1024x256_S512x256_S1024x512_1_1_0_0_n_n.lhsIdx_val_of_single rfl _ _).trans hk)
  have er : dot_S1024x256_S512x256_S1024x512_1_1_0_0_n_n.rhsIdx (ix2 r j) ((contrEquiv1 dot_S1024x256_S512x256_S1024x512_1_1_0_0_n_n 256 rfl rfl).symm k) = ix2 j k := funext fun a => Fin.ext (by
    match a with
    | ⟨0, _⟩ => exact qk_rhs0 _ _
    | ⟨1, _⟩ => exact (dot_S1024x256_S512x256_S1024x512_1_1_0_0_n_n.rhsIdx_val_of_single rfl _ _).trans hk)
  rw [el, er]

theorem pv_lhs0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem pv_rhs1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- Weights against a chunk's values: entry `(r, d)` is `Σ_j p[r, j] · v[j, d]`. -/
theorem pv_apply (p : FVec Ideal S1024x512 .f32) (v : FVec Ideal S512x256 .f32) (r : Fin 1024) (d : Fin 256) :
    matmul dot_S1024x512_S512x256_S1024x256_1_0_0_1_n_n (some .fp32) p v (constant S1024x256 .f32 0x00000000#32) (ix2 r d)
      = ∑ j : Fin 512, p (ix2 r j) * v (ix2 j d) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r d) ((contrEquiv1 dot_S1024x512_S512x256_S1024x256_1_0_0_1_n_n 512 rfl rfl).symm k) = ix2 r k := funext fun a => Fin.ext (by
    match a with
    | ⟨0, _⟩ => exact pv_lhs0 _ _
    | ⟨1, _⟩ => exact (dot_S1024x512_S512x256_S1024x256_1_0_0_1_n_n.lhsIdx_val_of_single rfl _ _).trans hk)
  have er : dot_S1024x512_S512x256_S1024x256_1_0_0_1_n_n.rhsIdx (ix2 r d) ((contrEquiv1 dot_S1024x512_S512x256_S1024x256_1_0_0_1_n_n 512 rfl rfl).symm k) = ix2 k d := funext fun a => Fin.ext (by
    match a with
    | ⟨0, _⟩ => exact (dot_S1024x512_S512x256_S1024x256_1_0_0_1_n_n.rhsIdx_val_of_single rfl _ _).trans hk
    | ⟨1, _⟩ => exact pv_rhs1 _ _)
  rw [el, er]

/-! ## A row's maximum and a row's sum, kept as a column -/

/-- The index a reduction over the second axis reads: row `r`, column `k`. -/
theorem lift512 (r : Fin 1024) (k : Fin 512) : reduces_S1024x512_S1024.lift (ix1 r) k = ix2 r k :=
  funext fun a => Fin.ext (by match a with | ⟨0, _⟩ => rfl | ⟨1, _⟩ => rfl)
theorem lift256 (r : Fin 1024) (k : Fin 256) : reduces_S1024x256_S1024.lift (ix1 r) k = ix2 r k :=
  funext fun a => Fin.ext (by match a with | ⟨0, _⟩ => rfl | ⟨1, _⟩ => rfl)

/-- The largest entry of row `r` of a `1024 × 512` block, from minus infinity. -/
theorem rowmax_apply (s : FVec Ideal S1024x512 .f32) (r : Fin 1024) (u : Fin 1) :
    shapeCast S1024x1 (multiReduction .maximumf [1] S1024 s 0xFF800000#32 reduces_S1024x512_S1024 (.inl rfl) rfl) shapeCasts_S1024_S1024x1 (ix2 r u)
      = (Finset.univ : Finset (Fin 512)).fold max (⊥ : EReal) (fun j => s (ix2 r j)) := by
  rw [Keepdims.shapeCast_a_a1_apply]
  refine (Ideal.multiReduction_maximumf_single s 0xFF800000#32 reduces_S1024x512_S1024 (.inl rfl) rfl (ix1 r)).trans ?_
  have e : (s ∘ reduces_S1024x512_S1024.lift (ix1 r)) = fun j : Fin 512 => s (ix2 r j) := funext fun k => congrArg s (lift512 r k)
  refine (congrArg (fun f => Finset.fold max (FloatOps.ofBits (F := Ideal) .f32 0xFF800000#32) f (Finset.univ : Finset (Fin 512))) e).trans ?_
  show Finset.fold max Attn.negInf _ _ = _
  rw [Attn.negInf_eq]

/-- The sum of row `r` of a `1024 × 512` block. -/
theorem rowsum512_apply (s : FVec Ideal S1024x512 .f32) (r : Fin 1024) (u : Fin 1) :
    shapeCast S1024x1 (multiReduction .add [1] S1024 s 0x00000000#32 reduces_S1024x512_S1024 (.inl rfl) rfl) shapeCasts_S1024_S1024x1 (ix2 r u)
      = ∑ j : Fin 512, s (ix2 r j) := by
  rw [Keepdims.shapeCast_a_a1_apply]
  exact (Ideal.multiReduction_add_single s 0x00000000#32 reduces_S1024x512_S1024 (.inl rfl) rfl (ix1 r)).trans
    (Finset.sum_congr rfl fun k _ => congrArg s (lift512 r k))

/-- The sum of row `r` of a `1024 × 256` block. -/
theorem rowsum256_apply (s : FVec Ideal S1024x256 .f32) (r : Fin 1024) (u : Fin 1) :
    shapeCast S1024x1 (multiReduction .add [1] S1024 s 0x00000000#32 reduces_S1024x256_S1024 (.inl rfl) rfl) shapeCasts_S1024_S1024x1 (ix2 r u)
      = ∑ d : Fin 256, s (ix2 r d) := by
  rw [Keepdims.shapeCast_a_a1_apply]
  exact (Ideal.multiReduction_add_single s 0x00000000#32 reduces_S1024x256_S1024 (.inl rfl) rfl (ix1 r)).trans
    (Finset.sum_congr rfl fun k _ => congrArg s (lift256 r k))

/-! ## The pointwise operations at an index (all by unfolding) -/

theorem exp_apply {s : Shape} (a : FVec Ideal s .f32) (i : s.Idx) : exp a i = Ideal.exp (a i) := rfl

/-- The word of the real one. -/
theorem oneW_eq : Ideal.ofBits .f32 0x3F800000#32 = (1 : EReal) := by
  simp [Ideal.ofBits, Ideal.ieee, -EReal.coe_mul]; norm_num

/-! ## One chunk at one row -/

/-- Row `r`'s scores against a chunk of keys. -/
def sRow (q : FVec Ideal S1024x256 .bf16) (kc : FVec Ideal S512x256 .bf16) (r : Fin 1024) : Fin 512 → EReal :=
  fun j => (∑ t : Fin 256, q (ix2 r t) * kc (ix2 j t)) * Attn.sixteenth

theorem scores_apply (q : FVec Ideal S1024x256 .bf16) (kc : FVec Ideal S512x256 .bf16) (r : Fin 1024) (j : Fin 512) :
    scores q kc (ix2 r j) = sRow q kc r j := by
  unfold scores sRow
  rw [mulf_apply, broadcast_apply, shapeCast_self, qk_apply]
  rfl

/-- One row's three running numbers, the weighted sum taken at output coordinate `d`. -/
def rowSt (st : St Ideal) (r : Fin 1024) (d : Fin 256) : EReal × EReal × EReal :=
  (st.1 (ix2 r 0), st.2.1 (ix2 r 0), st.2.2 (ix2 r d))

/-- A chunk's update, read at row `r` and coordinate `d`, is the scalar update on the row's scores and the chunk's
    value column `d`. -/
theorem chunkStep_row (q : FVec Ideal S1024x256 .bf16) (kc vc : FVec Ideal S512x256 .bf16) (st : St Ideal) (r : Fin 1024) (d : Fin 256) :
    rowSt (chunkStep q kc vc st) r d = OnlineSoftmax.step (sRow q kc r) (fun j => vc (ix2 j d)) (rowSt st r d) := by
  have hM : newMax st.1 (scores q kc) (ix2 r 0) = max (st.1 (ix2 r 0)) (Finset.univ.fold max ⊥ (sRow q kc r)) := by
    unfold newMax
    rw [maximumf_apply, rowmax_apply]
    refine congrArg (max (st.1 (ix2 r 0))) (congrArg (fun f => Finset.univ.fold max (⊥ : EReal) f) ?_)
    funext j; exact scores_apply q kc r j
  have hP : ∀ j : Fin 512, exp (subf (scores q kc) (broadcastTo S1024x512 (newMax st.1 (scores q kc)) broadcasts_S1024x1_S1024x512)) (ix2 r j)
      = Ideal.exp (sRow q kc r j - max (st.1 (ix2 r 0)) (Finset.univ.fold max ⊥ (sRow q kc r))) := by
    intro j
    rw [exp_apply, subf_apply, Keepdims.broadcastTo_a1_ab_apply, scores_apply, hM]
  have hA : exp (subf st.1 (newMax st.1 (scores q kc))) (ix2 r 0)
      = Ideal.exp (st.1 (ix2 r 0) - max (st.1 (ix2 r 0)) (Finset.univ.fold max ⊥ (sRow q kc r))) := by
    rw [exp_apply, subf_apply, hM]
  unfold rowSt OnlineSoftmax.step chunkStep
  refine Prod.ext hM (Prod.ext ?_ ?_)
  · dsimp only
    rw [addf_apply, mulf_apply, hA, rowsum512_apply]
    exact congrArg _ (Finset.sum_congr rfl fun j _ => hP j)
  · dsimp only
    rw [addf_apply, mulf_apply, Keepdims.broadcastTo_a1_ab_apply, hA, pv_apply]
    refine congrArg _ (Finset.sum_congr rfl fun j _ => ?_)
    rw [hP j, extf_apply, shapeCast_self]

/-! ## All the chunks at one row -/

/-- Row `r`'s scores against chunk `c` of the keys, and chunk `c`'s value column `d`. -/
def sAll (q : FVec Ideal S1024x256 .bf16) (K : FVec Ideal S8192x256 .bf16) (r : Fin 1024) : ℕ → Fin 512 → EReal :=
  fun c => sRow q (chunk (F := Ideal) K c) r
def vAll (V : FVec Ideal S8192x256 .bf16) (d : Fin 256) : ℕ → Fin 512 → EReal :=
  fun c j => chunk (F := Ideal) V c (ix2 j d)

/-- The recursion over the first `n` chunks, read at a row, is the scalar recursion. -/
theorem fold_row (q : FVec Ideal S1024x256 .bf16) (K V : FVec Ideal S8192x256 .bf16) (r : Fin 1024) (d : Fin 256) (n : ℕ) :
    rowSt (fold q K V n) r d = OnlineSoftmax.run (sAll q K r) (vAll V d) n := by
  induction n with
  | zero =>
    show ((Attn.negInf, Attn.zeroW, Attn.zeroW) : EReal × EReal × EReal) = (⊥, 0, 0)
    rw [Attn.negInf_eq, Attn.zeroW_eq]
  | succ n ih =>
    show rowSt (chunkStep q (chunk K n) (chunk V n) (fold q K V n)) r d = OnlineSoftmax.step (sAll q K r n) (vAll V d n) (OnlineSoftmax.run (sAll q K r) (vAll V d) n)
    rw [chunkStep_row, ih]
    rfl

/-! ## The finishing step at one row -/

/-- `Σ_d (h + acc · (1 / l)) · w2 + b2` at row `r`. -/
theorem finish_row (h : FVec Ideal S1024x256 .f32) (st : St Ideal) (w2 : FVec Ideal S1x256 .f32) (b2 : FVec Ideal S1x1 .f32) (r : Fin 1024) :
    finish h st w2 b2 (ix2 r 0)
      = (∑ d : Fin 256, (h (ix2 r d) + st.2.2 (ix2 r d) * Ideal.div 1 (st.2.1 (ix2 r 0))) * w2 (ix2 (0 : Fin 1) d)) + b2 (ix2 (0 : Fin 1) (0 : Fin 1)) := by
  unfold finish
  rw [addf_apply, rowsum256_apply, broadcastTo_1b_ab_apply, shapeCast_self]
  refine congrArg (· + b2 (ix2 (0 : Fin 1) (0 : Fin 1))) (Finset.sum_congr rfl fun d _ => ?_)
  rw [mulf_apply, addf_apply, mulf_apply, broadcastTo_1b_ab_apply, Keepdims.broadcastTo_a1_ab_apply, divf_apply, broadcast_apply]
  show (h (ix2 r d) + st.2.2 (ix2 r d) * Ideal.div (Ideal.ofBits .f32 0x3F800000#32) (st.2.1 (ix2 r 0))) * w2 (ix2 (0 : Fin 1) d) = _
  rw [oneW_eq]

end Cert.KernelIdeal.AttnRow

end
-- ==== Proof.AttnBridge.lean ====
import proofs.«160817_j35158602285581_2_alg».proof.Proof.AttnBlock
import proofs.«160817_j35158602285581_2_alg».proof.Proof.LibOnlineSoftmax
import proofs.«160817_j35158602285581_2_alg».proof.Proof.Spec
import proofs.«160817_j35158602285581_2_alg».proof.Proof.SpecFacts
import Idealize.ShloMosaic.Lib.ValueIdx
import Idealize.ShloMosaic.PureOps.Ideal.Laws

/-!
# One query row: the recursion over sixteen chunks of keys against the dense softmax

The keys and values are read in sixteen chunks of 512 consecutive rows.  Position `j` of chunk
`c` is row `512 c + j` of the whole array, so a double sum over chunks and positions is the
single sum over all 8192 rows.  With every score and value a real number, the online recursion's
quotient and the dense softmax-weighted average are both `(Σ exp s · v) / (Σ exp s)`.
-/

set_option maxRecDepth 16384

noncomputable section

namespace Cert.KernelIdeal.AttnBridge

open Idealize.ShloMosaic Idealize.ShloMosaic.ValueIdx Cert.KernelIdeal Cert.KernelIdeal.Gen
  Cert.KernelIdeal.AttnBlock

/-! ## A chunk read at an index -/

/-- A window of 512 rows starting at row `off`, read at `(j, t)`, is the array at `(off + j, t)`. -/
theorem ld_unit (K : Vec Ideal S8192x256 .bf16) (off : ℕ)
    (h : ∀ a, (![off, 0] : Fin 2 → Nat) a + S512x256.size a ≤ S8192x256.size a)
    (j : Fin 512) (t : Fin 256) (hlt : off + j.val < 8192) :
    View.ld K (Rect.unit (s := S8192x256) ![off, 0] S512x256.size h) (ix2 j t) = K (ix2 ⟨off + j.val, hlt⟩ t) := by
  show K _ = K _
  refine congrArg K (funext fun a => Fin.ext ?_)
  match a with
  | ⟨0, _⟩ => show off + 1 * j.val = off + j.val; omega
  | ⟨1, _⟩ => show 0 + 1 * t.val = t.val; omega

/-- Chunk `c` at `(j, t)` is the array at row `512 c + j`. -/
theorem chunk_apply (K : FVec Ideal S8192x256 .bf16) (c : ℕ) (hc : c < 16) (j : Fin 512) (t : Fin 256) :
    chunk (F := Ideal) K c (ix2 j t) = K (ix2 ⟨c * 512 + j.val, by omega⟩ t) := by
  interval_cases c <;> exact ld_unit K _ _ j t _

/-- Past the sixteenth chunk the chunk function returns chunk 0 again. -/
theorem chunk_ge (K : FVec Ideal S8192x256 .bf16) (c : ℕ) (hc : 16 ≤ c) :
    chunk (F := Ideal) K c = chunk (F := Ideal) K 0 := by
  obtain ⟨n, rfl⟩ : ∃ n, c = n + 16 := ⟨c - 16, by omega⟩
  rfl

/-- The row of the whole array that position `j` of chunk `c` reads (chunk 0's past the sixteenth). -/
def idx (c : ℕ) (j : Fin 512) : Fin 8192 :=
  ⟨(if c < 16 then c else 0) * 512 + j.val, by have := j.isLt; split <;> omega⟩

/-- Every chunk, in range or not, read at `(j, t)` is the array at row `idx c j`. -/
theorem chunk_idx (K : FVec Ideal S8192x256 .bf16) (c : ℕ) (j : Fin 512) (t : Fin 256) :
    chunk (F := Ideal) K c (ix2 j t) = K (ix2 (idx c j) t) := by
  by_cases hc : c < 16
  · rw [chunk_apply K c hc j t]
    refine congrArg (fun p => K (ix2 p t)) (Fin.ext ?_)
    simp [idx, hc]
  · rw [chunk_ge K c (by omega), chunk_apply K 0 (by omega) j t]
    refine congrArg (fun p => K (ix2 p t)) (Fin.ext ?_)
    simp [idx, hc]

/-! ## Sixteen chunks of 512 make all 8192 rows -/

/-- The double sum over chunks and positions is the sum over all rows. -/
theorem sum_idx (f : Fin 8192 → ℝ) :
    (∑ c ∈ Finset.range 16, ∑ j : Fin 512, f (idx c j)) = ∑ p : Fin 8192, f p := by
  have h : (∑ p : Fin 8192, f p) = ∑ c ∈ Finset.range 16, ∑ j : Fin 512,
      (if h : c * 512 + j.val < 16 * 512 then f ⟨c * 512 + j.val, h⟩ else 0) :=
    OnlineSoftmax.sum_chunks 16 512 f
  rw [h]
  refine Finset.sum_congr rfl fun c hc => Finset.sum_congr rfl fun j _ => ?_
  have hc' : c < 16 := Finset.mem_range.mp hc
  have hlt : c * 512 + j.val < 16 * 512 := by have := j.isLt; omega
  rw [dif_pos hlt]
  refine congrArg f (Fin.ext ?_)
  simp [idx, hc']

/-! ## The bridge for real scores and values -/

/-- For real scores `s` and real values in column `d`, the online recursion over the sixteen chunks
    and the dense softmax-weighted average agree: both are `(Σ exp s · v) / (Σ exp s)`. -/
theorem bridge (s : Fin 8192 → EReal) (V : Fin 8192 → Fin 256 → EReal) (d : Fin 256) (sr vr : Fin 8192 → ℝ)
    (hs : ∀ j, s j = ((sr j : ℝ) : EReal)) (hv : ∀ j, V j d = ((vr j : ℝ) : EReal)) :
    (OnlineSoftmax.run (fun c j => s (idx c j)) (fun c j => V (idx c j) d) 16).2.2 *
        Ideal.div 1 (OnlineSoftmax.run (fun c j => s (idx c j)) (fun c j => V (idx c j) d) 16).2.1 =
      Attn.attend s V d := by
  have hL : (OnlineSoftmax.run (fun c j => s (idx c j)) (fun c j => V (idx c j) d) 16).2.2 *
        Ideal.div 1 (OnlineSoftmax.run (fun c j => s (idx c j)) (fun c j => V (idx c j) d) 16).2.1 =
      ((((∑ c ∈ Finset.range 16, ∑ j : Fin 512, Real.exp (sr (idx c j)) * vr (idx c j)) /
          (∑ c ∈ Finset.range 16, ∑ j : Fin 512, Real.exp (sr (idx c j)))) : ℝ) : EReal) :=
    OnlineSoftmax.online_eq (fun c j => s (idx c j)) (fun c j => V (idx c j) d)
      (fun c j => sr (idx c j)) (fun c j => vr (idx c j)) (fun c j => hs _) (fun c j => hv _) 15
  obtain ⟨M, hM⟩ := Attn.rowMax_real s sr hs
  have hR := OnlineSoftmax.dense_eq s (fun j => V j d) sr vr hs hv M
  unfold Attn.attend
  rw [hM, Attn.zeroW_eq]
  refine hL.trans (Eq.trans ?_ hR.symm)
  rw [sum_idx (fun p => Real.exp (sr p) * vr p), sum_idx (fun p => Real.exp (sr p))]

/-! ## One query row of the kernel -/

/-- Row `r` of a block of queries against all keys and values: the recursion over the sixteen chunk
    loads is the specification's dense attention, at output coordinate `d`. -/
theorem row_bridge (q : FVec Ideal S1024x256 .bf16) (K V : FVec Ideal S8192x256 .bf16) (r : Fin 1024) (d : Fin 256)
    (hq : ∀ t : Fin 256, ∃ x : ℝ, q (ix2 r t) = (x : EReal)) (hK : ∀ i, ∃ x : ℝ, K i = (x : EReal))
    (hV : ∀ i, ∃ x : ℝ, V i = (x : EReal)) :
    (OnlineSoftmax.run (fun c j => (∑ t : Fin 256, q (ix2 r t) * chunk (F := Ideal) K c (ix2 j t)) * Attn.sixteenth)
        (fun c j => chunk (F := Ideal) V c (ix2 j d)) 16).2.2 *
      Ideal.div 1 (OnlineSoftmax.run (fun c j => (∑ t : Fin 256, q (ix2 r t) * chunk (F := Ideal) K c (ix2 j t)) * Attn.sixteenth)
        (fun c j => chunk (F := Ideal) V c (ix2 j d)) 16).2.1 =
      Attn.attend (fun j : Fin 8192 => (∑ t : Fin 256, q (ix2 r t) * K (ix2 j t)) * Attn.sixteenth)
        (fun j t => V (ix2 j t)) d := by
  choose qr hqr using hq
  choose Kr hKr using hK
  choose Vr hVr using hV
  have hs : ∀ j : Fin 8192, (∑ t : Fin 256, q (ix2 r t) * K (ix2 j t)) * Attn.sixteenth =
      ((((∑ t : Fin 256, qr t * Kr (ix2 j t)) * (1 / 16) : ℝ)) : EReal) := by
    intro j
    simp only [hqr, hKr, Attn.sixteenth_eq, ← EReal.coe_mul, OnlineSoftmax.coe_sum]
  have key := bridge (fun j : Fin 8192 => (∑ t : Fin 256, q (ix2 r t) * K (ix2 j t)) * Attn.sixteenth)
    (fun j t => V (ix2 j t)) d (fun j => (∑ t : Fin 256, qr t * Kr (ix2 j t)) * (1 / 16)) (fun j => Vr (ix2 j d))
    hs (fun j => hVr _)
  simp only [chunk_idx]
  exact key

end Cert.KernelIdeal.AttnBridge

end
-- ==== Proof.SpecReal.lean ====
import proofs.«160817_j35158602285581_2_alg».proof.Proof.Spec
import proofs.«160817_j35158602285581_2_alg».proof.Proof.SpecFacts
import proofs.«160817_j35158602285581_2_alg».proof.Proof.LibOnlineSoftmax

/-!
# The specification's linear layers and scores are real on real inputs

A finite sum of products of real numbers plus a real number is a real number, and so is such a
sum times 1/16: the coercion from the reals commutes with the product, the finite sum and the sum.
-/

noncomputable section

namespace Attn

open Idealize.ShloMosaic

/-- A linear layer of real inputs, real weights and real biases has real outputs. -/
theorem lin_real {n k o : ℕ} (a : Fin n → Fin k → EReal) (w : Fin o → Fin k → EReal) (b : Fin o → EReal)
    (ha : ∀ i t, ∃ x : ℝ, a i t = (x : EReal)) (hw : ∀ d t, ∃ x : ℝ, w d t = (x : EReal))
    (hb : ∀ d, ∃ x : ℝ, b d = (x : EReal)) :
    ∀ i d, ∃ x : ℝ, Attn.lin a w b i d = (x : EReal) := by
  choose ar har using ha
  choose wr hwr using hw
  choose br hbr using hb
  intro i d
  refine ⟨(∑ t : Fin k, ar i t * wr d t) + br d, ?_⟩
  unfold Attn.lin
  simp only [har, hwr, hbr, ← EReal.coe_mul, OnlineSoftmax.coe_sum, ← EReal.coe_add]

/-- The scaled inner product of a real query row and a real key row is real. -/
theorem score_real (q k : Fin 8192 → Fin 256 → EReal) (hq : ∀ i t, ∃ x : ℝ, q i t = (x : EReal))
    (hk : ∀ i t, ∃ x : ℝ, k i t = (x : EReal)) :
    ∀ i j, ∃ x : ℝ, Attn.score q k i j = (x : EReal) := by
  choose qr hqr using hq
  choose kr hkr using hk
  intro i j
  refine ⟨(∑ d : Fin 256, qr i d * kr j d) * (1 / 16), ?_⟩
  unfold Attn.score
  simp only [hqr, hkr, Attn.sixteenth_eq, ← EReal.coe_mul, OnlineSoftmax.coe_sum]

end Attn

end
-- ==== Proof.AttnValue.lean ====
/-
  The attention region's output at row `i`, as the specification writes it. Row `i` lies in block `i / 1024` at
  block row `i mod 1024`; the finishing step there is `Σ_d (h + acc / l) · w2 + b2` of that row's three running
  numbers after sixteen chunks; those are the scalar online recursion on the row's scores; and the recursion's
  `acc / l` is the dense softmax average of the value rows. The row's queries are the first linear layer of row `i`
  of the hidden array.
-/
import proofs.«160817_j35158602285581_2_alg».proof.Proof.AttnArray
import proofs.«160817_j35158602285581_2_alg».proof.Proof.AttnRow
import proofs.«160817_j35158602285581_2_alg».proof.Proof.AttnBridge
import proofs.«160817_j35158602285581_2_alg».proof.Proof.ProjBlock
import proofs.«160817_j35158602285581_2_alg».proof.Proof.SpecReal

set_option maxRecDepth 16384

noncomputable section

namespace Cert.KernelIdeal.AttnValue

open Idealize.ShloMosaic Idealize.ShloMosaic.ValueIdx
open Cert.KernelIdeal Cert.KernelIdeal.Gen Cert.KernelIdeal.AttnBlock Cert.KernelIdeal.AttnRow Cert.KernelIdeal.AttnArray
open Cert.KernelIdeal.AttnBridge Cert.KernelIdeal.ProjBlock

/-- Row `i mod 1024` of block `i / 1024` is row `i`. -/
theorem blockOf_apply (H : FVec Ideal S8192x256 .f32) (i : Fin 8192) (t : Fin 256) :
    blockOf H (i.val / 1024) (ix2 (⟨i.val % 1024, Nat.mod_lt _ (by decide)⟩ : Fin 1024) t) = H (ix2 i t) := by
  show H _ = H _
  refine congrArg H (funext fun a => Fin.ext ?_)
  have hi := i.isLt
  match a with
  | ⟨0, _⟩ => show (i.val / 1024 % 8) * 1024 + i.val % 1024 = i.val; omega
  | ⟨1, _⟩ => rfl

/-- The queries of row `i mod 1024` of block `i / 1024` are the first linear layer of row `i` of the hidden array. -/
theorem query_apply (H : FVec Ideal S8192x256 .f32) (QW : FVec Ideal S256x256 .bf16) (QB : FVec Ideal S1x256 .f32) (i : Fin 8192) (t : Fin 256) :
    k1_pay3 (F := Ideal) (blockOf H (i.val / 1024)) QW QB (ix2 (⟨i.val % 1024, Nat.mod_lt _ (by decide)⟩ : Fin 1024) t)
      = Attn.lin (fun a u => H (ix2 a u)) (fun o u => QW (ix2 o u)) (fun o => QB (ix2 (0 : Fin 1) o)) i t := by
  rw [k1_pay3_apply]
  unfold Attn.lin
  refine congrArg (· + QB (ix2 (0 : Fin 1) t)) (Finset.sum_congr rfl fun u _ => ?_)
  dsimp only
  rw [blockOf_apply]

/-- THE OUTPUT AT ROW `i`: the residual `h + softmax-average of v`, through the last linear layer. -/
theorem attnOut_apply (H : FVec Ideal S8192x256 .f32) (QW : FVec Ideal S256x256 .bf16) (QB : FVec Ideal S1x256 .f32) (K V : FVec Ideal S8192x256 .bf16)
    (W2 : FVec Ideal S1x256 .f32) (B2 : FVec Ideal S1x1 .f32)
    (hH : ∀ j, ∃ x : ℝ, H j = (x : EReal)) (hQW : ∀ j, ∃ x : ℝ, QW j = (x : EReal)) (hQB : ∀ j, ∃ x : ℝ, QB j = (x : EReal))
    (hK : ∀ j, ∃ x : ℝ, K j = (x : EReal)) (hV : ∀ j, ∃ x : ℝ, V j = (x : EReal)) (i : Fin 8192) :
    attnOut H QW QB K V W2 B2 (ix2 i (0 : Fin 1))
      = (∑ d : Fin 256, (H (ix2 i d)
          + Attn.attend (Attn.score (Attn.lin (fun a u => H (ix2 a u)) (fun o u => QW (ix2 o u)) (fun o => QB (ix2 (0 : Fin 1) o))) (fun j u => K (ix2 j u)) i)
              (fun j u => V (ix2 j u)) d) * W2 (ix2 (0 : Fin 1) d)) + B2 (ix2 (0 : Fin 1) (0 : Fin 1)) := by
  show finish (F := Ideal) (k1_pay2 (F := Ideal) (blockOf H (i.val / 1024))) (fold (F := Ideal) (k1_pay3 (F := Ideal) (blockOf H (i.val / 1024)) QW QB) K V 16) W2 B2
      (ix2 (⟨i.val % 1024, Nat.mod_lt _ (by decide)⟩ : Fin 1024) (0 : Fin 1)) = _
  rw [finish_row]
  refine congrArg (· + B2 (ix2 (0 : Fin 1) (0 : Fin 1))) (Finset.sum_congr rfl fun d _ => ?_)
  rw [k1_pay2_eq, blockOf_apply]
  have hrow := fold_row (k1_pay3 (F := Ideal) (blockOf H (i.val / 1024)) QW QB) K V (⟨i.val % 1024, Nat.mod_lt _ (by decide)⟩ : Fin 1024) d 16
  have h22 : (fold (F := Ideal) (k1_pay3 (F := Ideal) (blockOf H (i.val / 1024)) QW QB) K V 16).2.2 (ix2 (⟨i.val % 1024, Nat.mod_lt _ (by decide)⟩ : Fin 1024) d)
      = (OnlineSoftmax.run (sAll (k1_pay3 (F := Ideal) (blockOf H (i.val / 1024)) QW QB) K ⟨i.val % 1024, Nat.mod_lt _ (by decide)⟩) (vAll V d) 16).2.2 := congrArg (fun z => z.2.2) hrow
  have h21 : (fold (F := Ideal) (k1_pay3 (F := Ideal) (blockOf H (i.val / 1024)) QW QB) K V 16).2.1 (ix2 (⟨i.val % 1024, Nat.mod_lt _ (by decide)⟩ : Fin 1024) (0 : Fin 1))
      = (OnlineSoftmax.run (sAll (k1_pay3 (F := Ideal) (blockOf H (i.val / 1024)) QW QB) K ⟨i.val % 1024, Nat.mod_lt _ (by decide)⟩) (vAll V d) 16).2.1 := congrArg (fun z => z.2.1) hrow
  rw [h22, h21]
  have hq : ∀ t : Fin 256, ∃ x : ℝ, k1_pay3 (F := Ideal) (blockOf H (i.val / 1024)) QW QB (ix2 (⟨i.val % 1024, Nat.mod_lt _ (by decide)⟩ : Fin 1024) t) = (x : EReal) := by
    intro t
    rw [query_apply]
    exact Attn.lin_real _ _ _ (fun a u => hH _) (fun o u => hQW _) (fun o => hQB _) i t
  have hb := row_bridge (k1_pay3 (F := Ideal) (blockOf H (i.val / 1024)) QW QB) K V (⟨i.val % 1024, Nat.mod_lt _ (by decide)⟩ : Fin 1024) d hq hK hV
  refine congrArg (fun z => (H (ix2 i d) + z) * W2 (ix2 (0 : Fin 1) d)) (hb.trans ?_)
  refine congrArg (fun s => Attn.attend s (fun j u => V (ix2 j u)) d) (funext fun j => ?_)
  unfold Attn.score
  refine congrArg (· * Attn.sixteenth) (Finset.sum_congr rfl fun t _ => ?_)
  rw [query_apply]

end Cert.KernelIdeal.AttnValue

end
-- ==== Proof.KernelValue.lean ====
/-
  The kernel program's result as the specification's function of the argument arrays. The result buffer is the
  one-column output of the attention region, reshaped; that region finds the hidden, key and value arrays as the
  projection region left them, the query weights cast, and the biases reshaped to rows; the projection region finds
  the input and its weights as launched. Row by row: the hidden rows are the first linear layer of the input rows, keys
  and values are linear layers of the hidden rows, and the attention region's row is the residual of the dense softmax
  average through the last linear layer.
-/
import proofs.«160817_j35158602285581_2_alg».proof.Proof.HostSide
import proofs.«160817_j35158602285581_2_alg».proof.Proof.LibKeepdims2
import proofs.«160817_j35158602285581_2_alg».proof.Proof.ProjArray
import proofs.«160817_j35158602285581_2_alg».proof.Proof.ProjValue
import proofs.«160817_j35158602285581_2_alg».proof.Proof.AttnArray
import proofs.«160817_j35158602285581_2_alg».proof.Proof.AttnValue
import proofs.«160817_j35158602285581_2_alg».proof.Proof.SpecReal

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostSide Cert.KernelIdeal.ProjValue Cert.KernelIdeal.AttnValue

/-- Over the eleven argument arrays as variables: the reshaped attention output of the projected arrays is the
    specification, row by row. -/
theorem value_of_arrays (a0 : FVec Ideal S8192x1024 .f32) (a1 : FVec Ideal S256x1024 .f32) (a2 : FVec Ideal S256 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32) (a9 : FVec Ideal S1x256 .f32) (a10 : FVec Ideal S1 .f32)
    (h0 : ∀ i, ∃ x : ℝ, a0 i = (x : EReal)) (h1 : ∀ i, ∃ x : ℝ, a1 i = (x : EReal)) (h2 : ∀ i, ∃ x : ℝ, a2 i = (x : EReal))
    (h3 : ∀ i, ∃ x : ℝ, a3 i = (x : EReal)) (h4 : ∀ i, ∃ x : ℝ, a4 i = (x : EReal)) (h5 : ∀ i, ∃ x : ℝ, a5 i = (x : EReal))
    (h6 : ∀ i, ∃ x : ℝ, a6 i = (x : EReal)) (h7 : ∀ i, ∃ x : ℝ, a7 i = (x : EReal)) (h8 : ∀ i, ∃ x : ℝ, a8 i = (x : EReal)) :
    shapeCast S8192 (AttnArray.attnOut (ProjArray.hidOut a0 a1 (shapeCast S1x256 a2 shapeCasts_S256_S1x256)) (truncf .bf16 a3 bitsLt_bf16_f32) (shapeCast S1x256 a4 shapeCasts_S256_S1x256) (ProjArray.keyOut a0 a1 (shapeCast S1x256 a2 shapeCasts_S256_S1x256) (truncf .bf16 a5 bitsLt_bf16_f32) (shapeCast S1x256 a6 shapeCasts_S256_S1x256)) (ProjArray.valOut a0 a1 (shapeCast S1x256 a2 shapeCasts_S256_S1x256) (truncf .bf16 a7 bitsLt_bf16_f32) (shapeCast S1x256 a8 shapeCasts_S256_S1x256)) a9 (shapeCast S1x1 a10 shapeCasts_S1_S1x1)) shapeCasts_S8192x1_S8192
      = fun i => Attn.out (fun a t => a0 (ix2 a t)) (fun o t => a1 (ix2 o t)) (fun o => a2 (ix1 o)) (fun o t => a3 (ix2 o t)) (fun o => a4 (ix1 o))
          (fun o t => a5 (ix2 o t)) (fun o => a6 (ix1 o)) (fun o t => a7 (ix2 o t)) (fun o => a8 (ix1 o))
          (fun o => a9 (ix2 (0 : Fin 1) o)) (a10 (ix1 (0 : Fin 1))) (i 0) := by
  funext i
  obtain ⟨r, rfl⟩ : ∃ r : Fin 8192, i = ix1 r := ⟨i 0, eq_ix1 i⟩
  rw [Keepdims.shapeCast_a1_a_apply]
  -- the three projected arrays, as functions of a row and a column
  have eH : (fun a u => (ProjArray.hidOut a0 a1 (shapeCast S1x256 a2 shapeCasts_S256_S1x256)) (ix2 a u)) = (Attn.lin (fun a t => a0 (ix2 a t)) (fun o t => a1 (ix2 o t)) (fun o => a2 (ix1 o))) := by
    funext a u
    rw [hidOut_apply]
    exact congrArg (fun b => Attn.lin (fun a t => a0 (ix2 a t)) (fun o t => a1 (ix2 o t)) b a u) (funext fun o => bias_row_apply a2 o)
  have eK : (fun j u => (ProjArray.keyOut a0 a1 (shapeCast S1x256 a2 shapeCasts_S256_S1x256) (truncf .bf16 a5 bitsLt_bf16_f32) (shapeCast S1x256 a6 shapeCasts_S256_S1x256)) (ix2 j u)) = Attn.lin (Attn.lin (fun a t => a0 (ix2 a t)) (fun o t => a1 (ix2 o t)) (fun o => a2 (ix1 o))) (fun o t => a5 (ix2 o t)) (fun o => a6 (ix1 o)) := by
    funext j u
    rw [keyOut_apply]
    have e1 : (fun o => (shapeCast S1x256 a2 shapeCasts_S256_S1x256) (ix2 (0 : Fin 1) o)) = (fun o => a2 (ix1 o)) := funext fun o => bias_row_apply a2 o
    have e2 : (fun o => (shapeCast S1x256 a6 shapeCasts_S256_S1x256) (ix2 (0 : Fin 1) o)) = (fun o => a6 (ix1 o)) := funext fun o => bias_row_apply a6 o
    rw [e1, e2]
    rfl
  have eV : (fun j u => (ProjArray.valOut a0 a1 (shapeCast S1x256 a2 shapeCasts_S256_S1x256) (truncf .bf16 a7 bitsLt_bf16_f32) (shapeCast S1x256 a8 shapeCasts_S256_S1x256)) (ix2 j u)) = Attn.lin (Attn.lin (fun a t => a0 (ix2 a t)) (fun o t => a1 (ix2 o t)) (fun o => a2 (ix1 o))) (fun o t => a7 (ix2 o t)) (fun o => a8 (ix1 o)) := by
    funext j u
    rw [valOut_apply]
    have e1 : (fun o => (shapeCast S1x256 a2 shapeCasts_S256_S1x256) (ix2 (0 : Fin 1) o)) = (fun o => a2 (ix1 o)) := funext fun o => bias_row_apply a2 o
    have e2 : (fun o => (shapeCast S1x256 a8 shapeCasts_S256_S1x256) (ix2 (0 : Fin 1) o)) = (fun o => a8 (ix1 o)) := funext fun o => bias_row_apply a8 o
    rw [e1, e2]
    rfl
  have eQB : (fun o => (shapeCast S1x256 a4 shapeCasts_S256_S1x256) (ix2 (0 : Fin 1) o)) = (fun o => a4 (ix1 o)) := funext fun o => bias_row_apply a4 o
  -- every entry of the arrays the attention region reads is a real
  have rLH : ∀ a u, ∃ x : ℝ, (Attn.lin (fun a t => a0 (ix2 a t)) (fun o t => a1 (ix2 o t)) (fun o => a2 (ix1 o))) a u = (x : EReal) :=
    Attn.lin_real _ _ _ (fun a t => h0 _) (fun o t => h1 _) (fun o => h2 _)
  have rH : ∀ j, ∃ x : ℝ, (ProjArray.hidOut a0 a1 (shapeCast S1x256 a2 shapeCasts_S256_S1x256)) j = (x : EReal) := by
    intro j
    rw [eq_ix2 j]
    exact (congrFun (congrFun eH (j 0)) (j 1)) ▸ rLH (j 0) (j 1)
  have rK : ∀ j, ∃ x : ℝ, (ProjArray.keyOut a0 a1 (shapeCast S1x256 a2 shapeCasts_S256_S1x256) (truncf .bf16 a5 bitsLt_bf16_f32) (shapeCast S1x256 a6 shapeCasts_S256_S1x256)) j = (x : EReal) := by
    intro j
    rw [eq_ix2 j]
    exact (congrFun (congrFun eK (j 0)) (j 1)) ▸ Attn.lin_real _ _ _ rLH (fun o t => h5 _) (fun o => h6 _) (j 0) (j 1)
  have rV : ∀ j, ∃ x : ℝ, (ProjArray.valOut a0 a1 (shapeCast S1x256 a2 shapeCasts_S256_S1x256) (truncf .bf16 a7 bitsLt_bf16_f32) (shapeCast S1x256 a8 shapeCasts_S256_S1x256)) j = (x : EReal) := by
    intro j
    rw [eq_ix2 j]
    exact (congrFun (congrFun eV (j 0)) (j 1)) ▸ Attn.lin_real _ _ _ rLH (fun o t => h7 _) (fun o => h8 _) (j 0) (j 1)
  have rQW : ∀ j, ∃ x : ℝ, (truncf .bf16 a3 bitsLt_bf16_f32) j = (x : EReal) := fun j => h3 j
  have rQB : ∀ j, ∃ x : ℝ, (shapeCast S1x256 a4 shapeCasts_S256_S1x256) j = (x : EReal) := by
    intro j
    obtain ⟨u, o, rfl⟩ : ∃ (u : Fin 1) (o : Fin 256), j = ix2 u o := ⟨j 0, j 1, eq_ix2 j⟩
    rw [shapeCast_a_1a_apply]
    exact h4 _
  rw [attnOut_apply _ _ _ _ _ _ _ rH rQW rQB rK rV r, eH, eK, eV, eQB, bias_one_apply]
  have eHd : ∀ d : Fin 256, (ProjArray.hidOut a0 a1 (shapeCast S1x256 a2 shapeCasts_S256_S1x256)) (ix2 r d) = (Attn.lin (fun a t => a0 (ix2 a t)) (fun o t => a1 (ix2 o t)) (fun o => a2 (ix1 o))) r d := fun d => congrFun (congrFun eH r) d
  unfold Attn.out
  refine congrArg (· + a10 (ix1 (0 : Fin 1))) (Finset.sum_congr rfl fun d _ => ?_)
  rw [eHd d]
  rfl

variable (m : (ℓ : Loc nD τ sig) → Buf (Elt Ideal) ℓ) (ρ : Dev nD → PrngReg)

/-- THE RESULT BUFFER at the last boundary: the specification of the launch contents of the eleven arguments. -/
theorem result_eq (c : Dev nD)
    (h0 : ∀ i, ∃ x : ℝ, m ((c : Thread nD τ).loc main_arg0) i = (x : EReal)) (h1 : ∀ i, ∃ x : ℝ, m ((c : Thread nD τ).loc main_arg1) i = (x : EReal))
    (h2 : ∀ i, ∃ x : ℝ, m ((c : Thread nD τ).loc main_arg2) i = (x : EReal)) (h3 : ∀ i, ∃ x : ℝ, m ((c : Thread nD τ).loc main_arg3) i = (x : EReal))
    (h4 : ∀ i, ∃ x : ℝ, m ((c : Thread nD τ).loc main_arg4) i = (x : EReal)) (h5 : ∀ i, ∃ x : ℝ, m ((c : Thread nD τ).loc main_arg5) i = (x : EReal))
    (h6 : ∀ i, ∃ x : ℝ, m ((c : Thread nD τ).loc main_arg6) i = (x : EReal)) (h7 : ∀ i, ∃ x : ℝ, m ((c : Thread nD τ).loc main_arg7) i = (x : EReal))
    (h8 : ∀ i, ∃ x : ℝ, m ((c : Thread nD τ).loc main_arg8) i = (x : EReal)) :
    W4 m ρ c (Proc.devRef .tc main_v10)
      = fun i => Attn.out (fun a t => m ((c : Thread nD τ).loc main_arg0) (ix2 a t)) (fun o t => m ((c : Thread nD τ).loc main_arg1) (ix2 o t))
          (fun o => m ((c : Thread nD τ).loc main_arg2) (ix1 o)) (fun o t => m ((c : Thread nD τ).loc main_arg3) (ix2 o t))
          (fun o => m ((c : Thread nD τ).loc main_arg4) (ix1 o)) (fun o t => m ((c : Thread nD τ).loc main_arg5) (ix2 o t))
          (fun o => m ((c : Thread nD τ).loc main_arg6) (ix1 o)) (fun o t => m ((c : Thread nD τ).loc main_arg7) (ix2 o t))
          (fun o => m ((c : Thread nD τ).loc main_arg8) (ix1 o)) (fun o => m ((c : Thread nD τ).loc main_arg9) (ix2 (0 : Fin 1) o))
          (m ((c : Thread nD τ).loc main_arg10) (ix1 (0 : Fin 1))) (i 0) := by
  rw [W4_main_v10, AttnArray.final (V2 m ρ) c]
  rw [V2_main_v8_0, V2_main_v8_1, V2_main_v8_2, V2_main_v7, V2_main_v1, V2_main_arg9, V2_main_v4]
  rw [ProjArray.final7 (V1 m ρ) c, ProjArray.final8 (V1 m ρ) c, ProjArray.final9 (V1 m ρ) c]
  rw [V1_main_arg0, V1_main_arg1, V1_main_v0, V1_main_v5, V1_main_v2, V1_main_v6, V1_main_v3]
  exact value_of_arrays _ _ _ _ _ _ _ _ _ _ _ h0 h1 h2 h3 h4 h5 h6 h7 h8

end Cert.KernelIdeal.KernelValue

end
-- ==== Proof.RefSpec.lean ====
/-
  The reference program's result, read index by index, is the specification function.

  The reference computes the hidden rows, the queries, keys and values as matrix products with a broadcast bias; the
  scores as the product of the queries with the transposed keys times 1/16; each row's maximum as a fold of `max`
  from minus infinity; the exponentials of the shifted scores, their row sums from zero, the quotients; the product of
  the weights with the values, added to the hidden rows; and the last linear layer. Each stage is read at an index and
  identified with the specification's function of the same name, from the inputs outward.
-/
import proofs.«160817_j35158602285581_2_alg».proof.Proof.Gen.ReferenceIdeal.Read
import proofs.«160817_j35158602285581_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read

/-! ## Where each stage reads its operands, in coordinates -/

/-- First linear layer: row `r` of the input against row `d` of the weights, and the bias at `d`. -/
theorem lidx1_eq (r : Fin 8192) (d : Fin 256) (k : Fin 1024) : lidx_main_v1 (ix2 r d) k = ix2 r k :=
  funext fun a => Fin.ext (by match a with | ⟨0, _⟩ => rfl | ⟨1, _⟩ => rfl)
theorem ridx1_eq (r : Fin 8192) (d : Fin 256) (k : Fin 1024) : idx_main_v0 (ridx_main_v1 (ix2 r d) k) = ix2 d k :=
  funext fun a => Fin.ext (by match a with | ⟨0, _⟩ => rfl | ⟨1, _⟩ => rfl)
theorem bias3_eq (r : Fin 8192) (d : Fin 256) : idx_main_v2 (idx_main_v3 (ix2 r d)) = ix1 d :=
  funext fun a => Fin.ext (by match a with | ⟨0, _⟩ => rfl)

/-- The query, key and value layers: row `r` of the hidden rows against row `d` of the weights. -/
theorem lidx6_eq (r : Fin 8192) (d : Fin 256) (k : Fin 256) : lidx_main_v6 (ix2 r d) k = ix2 r k :=
  funext fun a => Fin.ext (by match a with | ⟨0, _⟩ => rfl | ⟨1, _⟩ => rfl)
theorem ridx6_eq (r : Fin 8192) (d : Fin 256) (k : Fin 256) : idx_main_v5 (ridx_main_v6 (ix2 r d) k) = ix2 d k :=
  funext fun a => Fin.ext (by match a with | ⟨0, _⟩ => rfl | ⟨1, _⟩ => rfl)
theorem bias8_eq (r : Fin 8192) (d : Fin 256) : idx_main_v7 (idx_main_v8 (ix2 r d)) = ix1 d :=
  funext fun a => Fin.ext (by match a with | ⟨0, _⟩ => rfl)
theorem lidx11_eq (r : Fin 8192) (d : Fin 256) (k : Fin 256) : lidx_main_v11 (ix2 r d) k = ix2 r k :=
  funext fun a => Fin.ext (by match a with | ⟨0, _⟩ => rfl | ⟨1, _⟩ => rfl)
theorem ridx11_eq (r : Fin 8192) (d : Fin 256) (k : Fin 256) : idx_main_v10 (ridx_main_v11 (ix2 r d) k) = ix2 d k :=
  funext fun a => Fin.ext (by match a with | ⟨0, _⟩ => rfl | ⟨1, _⟩ => rfl)
theorem bias13_eq (r : Fin 8192) (d : Fin 256) : idx_main_v12 (idx_main_v13 (ix2 r d)) = ix1 d :=
  funext fun a => Fin.ext (by match a with | ⟨0, _⟩ => rfl)
theorem lidx16_eq (r : Fin 8192) (d : Fin 256) (k : Fin 256) : lidx_main_v16 (ix2 r d) k = ix2 r k :=
  funext fun a => Fin.ext (by match a with | ⟨0, _⟩ => rfl | ⟨1, _⟩ => rfl)
theorem ridx16_eq (r : Fin 8192) (d : Fin 256) (k : Fin 256) : idx_main_v15 (ridx_main_v16 (ix2 r d) k) = ix2 d k :=
  funext fun a => Fin.ext (by match a with | ⟨0, _⟩ => rfl | ⟨1, _⟩ => rfl)
theorem bias18_eq (r : Fin 8192) (d : Fin 256) : idx_main_v17 (idx_main_v18 (ix2 r d)) = ix1 d :=
  funext fun a => Fin.ext (by match a with | ⟨0, _⟩ => rfl)

/-- The scores: row `r` of the queries against row `j` of the keys (the keys are transposed first). -/
theorem lidx21_eq (r j : Fin 8192) (k : Fin 256) : lidx_main_v21 (ix2 r j) k = ix2 r k :=
  funext fun a => Fin.ext (by match a with | ⟨0, _⟩ => rfl | ⟨1, _⟩ => rfl)
theorem ridx21_eq (r j : Fin 8192) (k : Fin 256) : idx_main_v20 (ridx_main_v21 (ix2 r j) k) = ix2 j k :=
  funext fun a => Fin.ext (by match a with | ⟨0, _⟩ => rfl | ⟨1, _⟩ => rfl)

/-- A row's maximum and a row's sum, broadcast back along the row, are read at the row. -/
theorem row28_eq (r j : Fin 8192) : idx_main_v27 (idx_main_v28 (ix2 r j)) = ix1 r :=
  funext fun a => Fin.ext (by match a with | ⟨0, _⟩ => rfl)
theorem row33_eq (r j : Fin 8192) : idx_main_v32 (idx_main_v33 (ix2 r j)) = ix1 r :=
  funext fun a => Fin.ext (by match a with | ⟨0, _⟩ => rfl)
theorem sum31_eq (r k : Fin 8192) : idx_main_v31 (ix1 r) k = ix2 r k :=
  funext fun a => Fin.ext (by match a with | ⟨0, _⟩ => rfl | ⟨1, _⟩ => rfl)

/-- The reduced index `r` with the column `k` put back is (r, k). -/
theorem lift_row (h : S8192x8192.Reduces [1] S8192) (r : Fin 8192) (k : Fin (S8192x8192.size 1)) :
    h.lift (ix1 r) k = ix2 r (⟨k.val, k.isLt⟩ : Fin 8192) :=
  funext fun a => Fin.ext (by match a with | ⟨0, _⟩ => rfl | ⟨1, _⟩ => rfl)

/-- The weighted average: row `r` of the weights against column `d` of the values. -/
theorem lidx35_eq (r : Fin 8192) (d : Fin 256) (k : Fin 8192) : lidx_main_v35 (ix2 r d) k = ix2 r k :=
  funext fun a => Fin.ext (by match a with | ⟨0, _⟩ => rfl | ⟨1, _⟩ => rfl)
theorem ridx35_eq (r : Fin 8192) (d : Fin 256) (k : Fin 8192) : ridx_main_v35 (ix2 r d) k = ix2 k d :=
  funext fun a => Fin.ext (by match a with | ⟨0, _⟩ => rfl | ⟨1, _⟩ => rfl)

/-- The last layer has one output column; its weights are one row, its bias one number. -/
theorem lidx38_eq (r : Fin 8192) (k : Fin 256) : lidx_main_v38 (ix2 r (0 : Fin 1)) k = ix2 r k :=
  funext fun a => Fin.ext (by match a with | ⟨0, _⟩ => rfl | ⟨1, _⟩ => rfl)
theorem ridx38_eq (r : Fin 8192) (k : Fin 256) : idx_main_v37 (ridx_main_v38 (ix2 r (0 : Fin 1)) k) = ix2 (0 : Fin 1) k :=
  funext fun a => Fin.ext (by match a with | ⟨0, _⟩ => rfl | ⟨1, _⟩ => rfl)
theorem bias40_eq (i : S8192x1.Idx) : idx_main_v39 (idx_main_v40 i) = ix1 (0 : Fin 1) :=
  funext fun a => Fin.ext (by match a with | ⟨0, _⟩ => rfl)
theorem idx42_eq (r : Fin 8192) : idx_main_v42 (ix1 r) = ix2 r (0 : Fin 1) :=
  funext fun a => Fin.ext (by match a with | ⟨0, _⟩ => exact Nat.div_one _ | ⟨1, _⟩ => rfl)

/-! ## The stages -/

section Stages

variable (x0 : (⟨S8192x1024, .f32⟩ : BufTy).Contents (Elt Ideal)) (x1 : (⟨S256x1024, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S1x256, .f32⟩ : BufTy).Contents (Elt Ideal))
  (x10 : (⟨S1, .f32⟩ : BufTy).Contents (Elt Ideal))

local notation "Xin" => (fun (a : Fin 8192) (b : Fin 1024) => x0 (ix2 a b))
local notation "Wone" => (fun (a : Fin 256) (b : Fin 1024) => x1 (ix2 a b))
local notation "Bone" => (fun (a : Fin 256) => x2 (ix1 a))
local notation "Wq" => (fun (a : Fin 256) (b : Fin 256) => x3 (ix2 a b))
local notation "Bq" => (fun (a : Fin 256) => x4 (ix1 a))
local notation "Wk" => (fun (a : Fin 256) (b : Fin 256) => x5 (ix2 a b))
local notation "Bk" => (fun (a : Fin 256) => x6 (ix1 a))
local notation "Wv" => (fun (a : Fin 256) (b : Fin 256) => x7 (ix2 a b))
local notation "Bv" => (fun (a : Fin 256) => x8 (ix1 a))
local notation "Hid" => (Attn.lin Xin Wone Bone)
local notation "Qry" => (Attn.lin Hid Wq Bq)
local notation "Key" => (Attn.lin Hid Wk Bk)
local notation "Val" => (Attn.lin Hid Wv Bv)

/-- The hidden rows. -/
theorem hidden_at (r : Fin 8192) (d : Fin 256) :
    val_main_v4 (F := Ideal) x0 x1 x2 (ix2 r d) = Hid r d := by
  rw [val_main_v4_apply, val_main_v1_apply, val_main_v3_apply, val_main_v2_apply]
  simp only [val_main_v0_apply, lidx1_eq, ridx1_eq, bias3_eq, Ideal.addf_def]
  rfl

/-- The queries. -/
theorem query_at (r : Fin 8192) (d : Fin 256) :
    val_main_v9 (F := Ideal) x0 x1 x2 x3 x4 (ix2 r d) = Qry r d := by
  rw [val_main_v9_apply, val_main_v6_apply, val_main_v8_apply, val_main_v7_apply]
  simp only [val_main_v5_apply, lidx6_eq, ridx6_eq, bias8_eq, hidden_at, Ideal.addf_def]
  rfl

/-- The keys. -/
theorem key_at (r : Fin 8192) (d : Fin 256) :
    val_main_v14 (F := Ideal) x0 x1 x2 x5 x6 (ix2 r d) = Key r d := by
  rw [val_main_v14_apply, val_main_v11_apply, val_main_v13_apply, val_main_v12_apply]
  simp only [val_main_v10_apply, lidx11_eq, ridx11_eq, bias13_eq, hidden_at, Ideal.addf_def]
  rfl

/-- The values. -/
theorem value_at (r : Fin 8192) (d : Fin 256) :
    val_main_v19 (F := Ideal) x0 x1 x2 x7 x8 (ix2 r d) = Val r d := by
  rw [val_main_v19_apply, val_main_v16_apply, val_main_v18_apply, val_main_v17_apply]
  simp only [val_main_v15_apply, lidx16_eq, ridx16_eq, bias18_eq, hidden_at, Ideal.addf_def]
  rfl

/-- The scaled scores. -/
theorem score_at (r j : Fin 8192) :
    val_main_v23 (F := Ideal) x0 x1 x2 x3 x4 x5 x6 (ix2 r j) = Attn.score Qry Key r j := by
  rw [val_main_v23_apply, val_main_v21_apply, val_main_v22_apply, val_main_cst_apply]
  simp only [val_main_v20_apply, lidx21_eq, ridx21_eq, query_at, key_at, Ideal.mulf_def, Ideal.ofBits_def]
  rfl

/-- A row's maximum: the fold of `max` over the row's columns from minus infinity, then the maximum with minus infinity. -/
theorem rowMax_at (r : Fin 8192) :
    val_main_v26 (F := Ideal) x0 x1 x2 x3 x4 x5 x6 (ix1 r) = Attn.rowMax (Attn.score Qry Key r) := by
  have hR : S8192x8192.Reduces [1] S8192 := by decide
  rw [val_main_v26_apply, val_main_v25_apply, val_main_cst_1_apply]
  unfold val_main_v24
  rw [Host.reduce_eq_fold_single (FloatOps.maximumf (F := Ideal) (φ := .f32)) (val_main_v23 (F := Ideal) x0 x1 x2 x3 x4 x5 x6)
    (val_main_cst_0 (F := Ideal)) reducesTo_S8192x8192_S8192_d1 hR h_S_]
  have hf : (val_main_v23 (F := Ideal) x0 x1 x2 x3 x4 x5 x6 ∘ hR.lift (ix1 r)) = fun k : Fin 8192 => Attn.score Qry Key r k :=
    funext fun k => by
      show val_main_v23 (F := Ideal) x0 x1 x2 x3 x4 x5 x6 (hR.lift (ix1 r) k) = _
      rw [lift_row hR r k]
      exact score_at x0 x1 x2 x3 x4 x5 x6 r _
  rw [hf]
  rfl

/-- The exponential of a score shifted by its row's maximum. -/
theorem expw_at (r j : Fin 8192) :
    val_main_v30 (F := Ideal) x0 x1 x2 x3 x4 x5 x6 (ix2 r j)
      = Ideal.exp (Attn.score Qry Key r j - Attn.rowMax (Attn.score Qry Key r)) := by
  rw [val_main_v30_apply, val_main_v29_apply, val_main_v28_apply, val_main_v27_apply, row28_eq, rowMax_at, score_at]
  rfl

/-- A row's sum of exponentials, from the zero word. -/
theorem denom_at (r : Fin 8192) :
    val_main_v31 (F := Ideal) x0 x1 x2 x3 x4 x5 x6 (ix1 r)
      = Attn.zeroW + ∑ j' : Fin 8192, Ideal.exp (Attn.score Qry Key r j' - Attn.rowMax (Attn.score Qry Key r)) := by
  rw [val_main_v31_apply, val_main_cst_2_apply]
  simp only [sum31_eq, expw_at]
  rfl

/-- The softmax weight of column `j` in row `r`. -/
theorem weight_at (r j : Fin 8192) :
    val_main_v34 (F := Ideal) x0 x1 x2 x3 x4 x5 x6 (ix2 r j)
      = Ideal.div (Ideal.exp (Attn.score Qry Key r j - Attn.rowMax (Attn.score Qry Key r)))
          (Attn.zeroW + ∑ j' : Fin 8192, Ideal.exp (Attn.score Qry Key r j' - Attn.rowMax (Attn.score Qry Key r))) := by
  rw [val_main_v34_apply, val_main_v33_apply, val_main_v32_apply, row33_eq, denom_at, expw_at]
  rfl

/-- The weighted average of the value rows. -/
theorem attend_at (r : Fin 8192) (d : Fin 256) :
    val_main_v35 (F := Ideal) x0 x1 x2 x3 x4 x5 x6 x7 x8 (ix2 r d) = Attn.attend (Attn.score Qry Key r) Val d := by
  rw [val_main_v35_apply]
  simp only [lidx35_eq, ridx35_eq, weight_at, value_at]
  rfl

/-- The result at row `r`. -/
theorem out_at (r : Fin 8192) :
    val_main_v42 (F := Ideal) x0 x1 x2 x3 x4 x5 x6 x7 x8 x9 x10 (ix1 r)
      = Attn.out Xin Wone Bone Wq Bq Wk Bk Wv Bv (fun a => x9 (ix2 0 a)) (x10 (ix1 0)) r := by
  rw [val_main_v42_apply, idx42_eq, val_main_v41_apply, val_main_v38_apply, val_main_v40_apply, val_main_v39_apply,
    bias40_eq]
  simp only [lidx38_eq, ridx38_eq, val_main_v37_apply, val_main_v36_apply, hidden_at, attend_at, Ideal.addf_def]
  rfl

/-- The reference's result is the specification function, index by index. -/
theorem ref_is_spec :
    val_main_v42 (F := Ideal) x0 x1 x2 x3 x4 x5 x6 x7 x8 x9 x10 = fun i =>
      Attn.out (fun a b => x0 (ix2 a b)) (fun a b => x1 (ix2 a b)) (fun a => x2 (ix1 a)) (fun a b => x3 (ix2 a b))
        (fun a => x4 (ix1 a)) (fun a b => x5 (ix2 a b)) (fun a => x6 (ix1 a)) (fun a b => x7 (ix2 a b))
        (fun a => x8 (ix1 a)) (fun a => x9 (ix2 0 a)) (x10 (ix1 0)) (i 0) := by
  funext i
  obtain ⟨r, rfl⟩ : ∃ r : Fin 8192, i = ix1 r := ⟨i 0, eq_ix1 i⟩
  exact out_at x0 x1 x2 x3 x4 x5 x6 x7 x8 x9 x10 r

end Stages

end Cert.ReferenceIdeal.RefValue

end
-- ==== Proof.Finite.lean ====
import proofs.«160817_j35158602285581_2_alg».proof.Proof.Gen.Pre_finite_inputs
import Idealize.ShloMosaic.PureOps.Ideal
import Idealize.ShloMosaic.Lib.ReduceAll
import Idealize.ShloMosaic.Lib.ValueIdx

/-!
# The precondition read back: every argument entry is a real number

The precondition is the conjunction, over the eleven argument arrays, of `all (|x| < +∞)`.
Over the extended reals `|x| = max x (-x)`, and `max x (-x) < ⊤` excludes both `x = ⊤`
and `x = ⊥` (whose negation is `⊤`); what is left is the coercion of a real number.
-/

namespace Cert.Finite

open Idealize.ShloMosaic Cert.Pre_finite_inputs

/-- The scalar shape has exactly one index. -/
instance : Subsingleton S_.Idx := ⟨fun a b => funext fun d => d.elim0⟩

/-- The bit pattern `0x7F800000` denotes `+∞`. -/
theorem inf_bits : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The ordered comparison `x < +∞` answering 1 says `x < ⊤`. -/
theorem lt_top_of_cmp (x : EReal) (h : Ideal.cmp .olt x (Ideal.ofBits .f32 0x7F800000#32) = 1#1) :
    x < (⊤ : EReal) := by
  rw [inf_bits] at h
  by_contra hx
  simp [Ideal.cmp, hx] at h

/-- One conjunct of the precondition — the reduction by `and` of `|a| < +∞` over all axes being 1 —
    makes every entry of `a` a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf a) (broadcastInDim s ![] hb (constant (F := Ideal) S_ .f32 0x7F800000#32)))
        (constantI S_ 1 1#1) hr hu j = 1#1) :
    ∀ i, ∃ r : ℝ, a i = (r : EReal) := by
  intro i
  have h1 := Host.reduce_andi_all _ _ hr hu j e i
  exact real_of_abs_lt_top (a i) (lt_top_of_cmp _ h1)

/-- A conjunction of two `i1` scalars that is 1 has both conjuncts 1. -/
theorem andi_split (x y : IVec S_ 1) (j : S_.Idx) (h : andi x y j = 1#1) : x j = 1#1 ∧ y j = 1#1 :=
  IntOp.andi_eq_one.1 h

/-- The precondition holding makes every entry of each of the eleven argument arrays a real number. -/
theorem finite_of_pre [hP : Cert.Pre_finite_inputs.Facts]
    (a0 : FVec Ideal S8192x1024 .f32) (a1 : FVec Ideal S256x1024 .f32) (a2 : FVec Ideal S256 .f32)
    (a3 : FVec Ideal S256x256 .f32) (a4 : FVec Ideal S256 .f32) (a5 : FVec Ideal S256x256 .f32)
    (a6 : FVec Ideal S256 .f32) (a7 : FVec Ideal S256x256 .f32) (a8 : FVec Ideal S256 .f32)
    (a9 : FVec Ideal S1x256 .f32) (a10 : FVec Ideal S1 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) := by
  have h0 := congrFun h ValueIdx.ix0
  dsimp only [Cert.Pre_finite_inputs.fn, fn_part1, fn_part2, fn_part3] at h0
  -- the conjunction is nested to the left: peel the last conjunct off, ten times
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5,
    real_of_all a6 _ _ _ _ e6, real_of_all a7 _ _ _ _ e7, real_of_all a8 _ _ _ _ e8,
    real_of_all a9 _ _ _ _ e9, real_of_all a10 _ _ _ _ e10⟩

end Cert.Finite
-- ==== Proof.lean ====
/-
  A fused attention layer against its dense reference, as extended reals.

  Both programs compute, per row `i` of the input: the hidden row `h = x · w1ᵀ + b1`; queries, keys and values as linear
  layers of the hidden rows; the scores of row `i` against all 8192 key rows, times 1/16; the softmax of those scores;
  the softmax-weighted average of the value rows, added back to `h`; and one last linear layer giving one number.
  The reference forms the whole 8192 × 8192 score matrix, subtracts each row's maximum, exponentiates and divides by
  the row sum. The kernel never forms it: a first region writes `h`, `k`, `v` block by block; a second region walks
  the keys in sixteen chunks of 512, keeping per row a running maximum `m`, a normaliser `l` and weighted sums `acc`,
  rescaling the old `l` and `acc` by `exp (m - m')` whenever the maximum moves, and divides once at the end.
  The two agree because softmax does not depend on the shift: for finite scores both sides are the one real number
  `(Σ_j exp s_j · v_j) / (Σ_j exp s_j)`, the kernel's running shift being some real number and the reference's the
  row maximum. That is where the inputs' finiteness is used: the rescaling moves a factor across a sum, and the final
  division cancels, neither of which holds at an infinity. Every format change is the identity on the extended reals,
  and 1/16 is the same word on both sides.

  Each region writes its output arrays in eight blocks of 1024 rows that cover all 8192 rows, so each array is one
  function of the region's operand arrays; composing the two regions and the reshapes around them gives the result
  array, which is then read one row at a time.
-/
import proofs.«160817_j35158602285581_2_alg».proof.Defs
import proofs.«160817_j35158602285581_2_alg».proof.Proof.Gen.Kernel
import proofs.«160817_j35158602285581_2_alg».proof.Proof.Gen.Kernel.Skeleton
import proofs.«160817_j35158602285581_2_alg».proof.Proof.Gen.Kernel.Launch
import proofs.«160817_j35158602285581_2_alg».proof.Proof.Gen.Kernel.Points
import proofs.«160817_j35158602285581_2_alg».proof.Proof.Gen.Kernel.Frame
import proofs.«160817_j35158602285581_2_alg».proof.Proof.Gen.KernelIdeal
import proofs.«160817_j35158602285581_2_alg».proof.Proof.Gen.KernelIdeal.Skeleton
import proofs.«160817_j35158602285581_2_alg».proof.Proof.Gen.KernelIdeal.Launch
import proofs.«160817_j35158602285581_2_alg».proof.Proof.Gen.KernelIdeal.Points
import proofs.«160817_j35158602285581_2_alg».proof.Proof.Gen.KernelIdeal.Frame
import proofs.«160817_j35158602285581_2_alg».proof.Proof.Gen.ReferenceIdeal
import proofs.«160817_j35158602285581_2_alg».proof.Proof.Gen.Pre_finite_inputs
import proofs.«160817_j35158602285581_2_alg».proof.Proof.Gen.ReferenceIdeal.Run
import proofs.«160817_j35158602285581_2_alg».proof.Proof.Gen.ReferenceIdeal.Read
import proofs.«160817_j35158602285581_2_alg».proof.Proof.KernelRun
import proofs.«160817_j35158602285581_2_alg».proof.Proof.KernelValue
import proofs.«160817_j35158602285581_2_alg».proof.Proof.RefSpec
import proofs.«160817_j35158602285581_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification of the (agreeing, finite) arguments in their result buffers. -/
theorem algebraic : Cert.algebraic_KernelIdeal_ReferenceIdeal := by
  intro m ρ m' ρ' hpre hagree
  refine ⟨fun c => fun i => Attn.out (fun a t => m ((c.tc : Thread Cert.KernelIdeal.nD Cert.KernelIdeal.τ).loc Cert.KernelIdeal.main_arg0) (ix2 a t)) (fun o t => m ((c.tc : Thread Cert.KernelIdeal.nD Cert.KernelIdeal.τ).loc Cert.KernelIdeal.main_arg1) (ix2 o t))
        (fun o => m ((c.tc : Thread Cert.KernelIdeal.nD Cert.KernelIdeal.τ).loc Cert.KernelIdeal.main_arg2) (ix1 o)) (fun o t => m ((c.tc : Thread Cert.KernelIdeal.nD Cert.KernelIdeal.τ).loc Cert.KernelIdeal.main_arg3) (ix2 o t))
        (fun o => m ((c.tc : Thread Cert.KernelIdeal.nD Cert.KernelIdeal.τ).loc Cert.KernelIdeal.main_arg4) (ix1 o)) (fun o t => m ((c.tc : Thread Cert.KernelIdeal.nD Cert.KernelIdeal.τ).loc Cert.KernelIdeal.main_arg5) (ix2 o t))
        (fun o => m ((c.tc : Thread Cert.KernelIdeal.nD Cert.KernelIdeal.τ).loc Cert.KernelIdeal.main_arg6) (ix1 o)) (fun o t => m ((c.tc : Thread Cert.KernelIdeal.nD Cert.KernelIdeal.τ).loc Cert.KernelIdeal.main_arg7) (ix2 o t))
        (fun o => m ((c.tc : Thread Cert.KernelIdeal.nD Cert.KernelIdeal.τ).loc Cert.KernelIdeal.main_arg8) (ix1 o)) (fun o => m ((c.tc : Thread Cert.KernelIdeal.nD Cert.KernelIdeal.τ).loc Cert.KernelIdeal.main_arg9) (ix2 (0 : Fin 1) o))
        (m ((c.tc : Thread Cert.KernelIdeal.nD Cert.KernelIdeal.τ).loc Cert.KernelIdeal.main_arg10) (ix1 (0 : Fin 1))) (i 0), ?_, ?_⟩
  · refine (θ_run Cert.KernelIdeal.defs _ _).mono (fun r h c => ?_) (Cert.KernelIdeal.RunValue.run_value (F := Ideal) m ρ)
    obtain ⟨f0, f1, f2, f3, f4, f5, f6, f7, f8, -, -⟩ := Cert.Finite.finite_of_pre _ _ _ _ _ _ _ _ _ _ _ (hpre c)
    exact ⟨(h c).1.trans (Cert.KernelIdeal.KernelValue.result_eq m ρ c f0 f1 f2 f3 f4 f5 f6 f7 f8), (h c).2⟩
  · refine (θ_run Cert.ReferenceIdeal.defs _ _).mono (fun r h c => ⟨?_, (h c).2⟩) (Cert.ReferenceIdeal.Value.run (F := Ideal) m' ρ')
    obtain ⟨g0, g1, g2, g3, g4, g5, g6, g7, g8, g9, g10⟩ := hagree c
    rw [(h c).1, Cert.ReferenceIdeal.Read.val_main_v42_eq, Cert.ReferenceIdeal.RefValue.ref_is_spec, g0, g1, g2, g3, g4, g5, g6, g7, g8, g9, g10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
